-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S2x2048x16x64 : Shape := ⟨4, ![2, 2048, 16, 64]⟩
abbrev S2x16x2048x64 : Shape := ⟨4, ![2, 16, 2048, 64]⟩
abbrev S2x8x2x2048x64 : Shape := ⟨5, ![2, 8, 2, 2048, 64]⟩
abbrev S16x2x2048x64 : Shape := ⟨4, ![16, 2, 2048, 64]⟩
abbrev S16x2048x128 : Shape := ⟨3, ![16, 2048, 128]⟩
abbrev S1x2x512x64 : Shape := ⟨4, ![1, 2, 512, 64]⟩
abbrev S1x2x2048x64 : Shape := ⟨4, ![1, 2, 2048, 64]⟩
abbrev S1x512x128 : Shape := ⟨3, ![1, 512, 128]⟩
abbrev S2x512x64 : Shape := ⟨3, ![2, 512, 64]⟩
abbrev S2x2048x64 : Shape := ⟨3, ![2, 2048, 64]⟩
abbrev S2x512x2048 : Shape := ⟨3, ![2, 512, 2048]⟩
abbrev S2x512 : Shape := ⟨2, ![2, 512]⟩
abbrev S2x512x1 : Shape := ⟨3, ![2, 512, 1]⟩
abbrev S1x512x64 : Shape := ⟨3, ![1, 512, 64]⟩
abbrev S512x64 : Shape := ⟨2, ![512, 64]⟩
abbrev S512x128 : Shape := ⟨2, ![512, 128]⟩
abbrev S2x8x2048x2x64 : Shape := ⟨5, ![2, 8, 2048, 2, 64]⟩
abbrev S2x2048x8x2x64 : Shape := ⟨5, ![2, 2048, 8, 2, 64]⟩

abbrev nBuf : Space → Nat
  | .hbm => 38
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1x1024, .f32⟩
  | .hbm, ⟨11, _⟩ => ⟨S4096x1024, .bf16⟩
  | .hbm, ⟨12, _⟩ => ⟨S2x2048x1024, .bf16⟩
  | .hbm, ⟨13, _⟩ => ⟨S4096x1024, .f32⟩
  | .hbm, ⟨14, _⟩ => ⟨S1x1024, .f32⟩
  | .hbm, ⟨15, _⟩ => ⟨S4096x1024, .bf16⟩
  | .hbm, ⟨16, _⟩ => ⟨S2x2048x1024, .bf16⟩
  | .hbm, ⟨17, _⟩ => ⟨S4096x1024, .f32⟩
  | .hbm, ⟨18, _⟩ => ⟨S1x1024, .f32⟩
  | .hbm, ⟨19, _⟩ => ⟨S4096x1024, .bf16⟩
  | .hbm, ⟨20, _⟩ => ⟨S2x2048x1024, .bf16⟩
  | .hbm, ⟨21, _⟩ => ⟨S2x2048x16x64, .bf16⟩
  | .hbm, ⟨22, _⟩ => ⟨S2x16x2048x64, .bf16⟩
  | .hbm, ⟨23, _⟩ => ⟨S2x8x2x2048x64, .bf16⟩
  | .hbm, ⟨24, _⟩ => ⟨S16x2x2048x64, .bf16⟩
  | .hbm, ⟨25, _⟩ => ⟨S2x2048x16x64, .bf16⟩
  | .hbm, ⟨26, _⟩ => ⟨S2x16x2048x64, .bf16⟩
  | .hbm, ⟨27, _⟩ => ⟨S2x8x2x2048x64, .bf16⟩
  | .hbm, ⟨28, _⟩ => ⟨S16x2x2048x64, .bf16⟩
  | .hbm, ⟨29, _⟩ => ⟨S2x2048x16x64, .bf16⟩
  | .hbm, ⟨30, _⟩ => ⟨S2x16x2048x64, .bf16⟩
  | .hbm, ⟨31, _⟩ => ⟨S2x8x2x2048x64, .bf16⟩
  | .hbm, ⟨32, _⟩ => ⟨S16x2x2048x64, .bf16⟩
  | .hbm, ⟨33, _⟩ => ⟨S16x2048x128, .f32⟩
  | .hbm, ⟨34, _⟩ => ⟨S2x8x2048x2x64, .f32⟩
  | .hbm, ⟨35, _⟩ => ⟨S2x2048x8x2x64, .f32⟩
  | .hbm, ⟨36, _⟩ => ⟨S2x2048x16x64, .f32⟩
  | .hbm, ⟨37, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x2x512x64, .bf16⟩
  | .local _ .vmem, ⟨19, _⟩ => ⟨S1x2x512x64, .bf16⟩
  | .local _ .vmem, ⟨20, _⟩ => ⟨S1x2x2048x64, .bf16⟩
  | .local _ .vmem, ⟨21, _⟩ => ⟨S1x2x2048x64, .bf16⟩
  | .local _ .vmem, ⟨22, _⟩ => ⟨S1x2x2048x64, .bf16⟩
  | .local _ .vmem, ⟨23, _⟩ => ⟨S1x2x2048x64, .bf16⟩
  | .local _ .vmem, ⟨24, _⟩ => ⟨S1x512x128, .f32⟩
  | .local _ .vmem, ⟨25, _⟩ => ⟨S1x512x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 4], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x2x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  shapeCasts_S2x2048x1024_S4096x1024 : S2x2048x1024.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S2x8x2x2048x64 : S2x16x2048x64.ShapeCasts S2x8x2x2048x64
  shapeCasts_S2x8x2x2048x64_S16x2x2048x64 : S2x8x2x2048x64.ShapeCasts S16x2x2048x64
  inb_S1x2x512x64_S1x2x512x64_0_0_0_0 : ∀ a, (![0, 0, 0, 0] : Fin 4 → Nat) a + S1x2x512x64.size a ≤ S1x2x512x64.size a
  h_S1x2x512x64 : 0 < S1x2x512x64.numel
  shapeCasts_S1x2x512x64_S2x512x64 : S1x2x512x64.ShapeCasts S2x512x64
  inb_S1x2x2048x64_S1x2x2048x64_0_0_0_0 : ∀ a, (![0, 0, 0, 0] : Fin 4 → Nat) a + S1x2x2048x64.size a ≤ S1x2x2048x64.size a
  h_S1x2x2048x64 : 0 < S1x2x2048x64.numel
  shapeCasts_S1x2x2048x64_S2x2048x64 : S1x2x2048x64.ShapeCasts S2x2048x64
  reduces_S2x512x2048_S2x512 : S2x512x2048.Reduces [2] S2x512
  shapeCasts_S2x512_S2x512x1 : S2x512.ShapeCasts S2x512x1
  broadcasts_S2x512x1_S2x512x2048 : S2x512x1.Broadcasts S2x512x2048
  slices_S2x512x64_o0_0_0_S1x512x64 : S2x512x64.Slices ![0, 0, 0] S1x512x64
  shapeCasts_S1x512x64_S512x64 : S1x512x64.ShapeCasts S512x64
  slices_S2x512x64_o1_0_0_S1x512x64 : S2x512x64.Slices ![1, 0, 0] S1x512x64
  concatenates_S512x64_S512x64_S512x128_d1 : Shape.Concatenates [S512x64, S512x64] S512x128 1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S16x2048x128_S2x8x2048x2x64 : S16x2048x128.ShapeCasts S2x8x2048x2x64
  transposes_S2x8x2048x2x64_S2x2048x8x2x64_0_2_1_3_4 : S2x8x2048x2x64.Transposes [0, 2, 1, 3, 4] S2x2048x8x2x64
  shapeCasts_S2x2048x8x2x64_S2x2048x16x64 : S2x2048x8x2x64.ShapeCasts S2x2048x16x64
  shapeCasts_S2x2048x16x64_S2x2048x1024 : S2x2048x16x64.ShapeCasts S2x2048x1024
  dot_S1024x1024_S1024x1024_S1024x1024_1_0_0_1_n_n_wf : DotDims.WF S1024x1024 S1024x1024 S1024x1024 [1] [0] [0] [1] [] []
  dot_S2x512x64_S2x2048x64_S2x512x2048_2_2_1_1_0_0_wf : DotDims.WF S2x512x64 S2x2048x64 S2x512x2048 [2] [2] [1] [1] [0] [0]
  dot_S2x512x2048_S2x2048x64_S2x512x64_2_1_1_2_0_0_wf : DotDims.WF S2x512x2048 S2x2048x64 S2x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2x512x64.size a ≤ S16x2x2048x64.size a
  hwx3_0 : ∀ i : grid3.Coords, EltTy.bits .bf16 = 32 ∨ (Rect.block (s := S16x2x2048x64) S1x2x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2x2048x64.size a ≤ S16x2x2048x64.size a
  hwx3_1 : ∀ i : grid3.Coords, EltTy.bits .bf16 = 32 ∨ (Rect.block (s := S16x2x2048x64) S1x2x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2x2048x64.size a ≤ S16x2x2048x64.size a
  hwx3_2 : ∀ i : grid3.Coords, EltTy.bits .bf16 = 32 ∨ (Rect.block (s := S16x2x2048x64) S1x2x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x128.size a ≤ S16x2048x128.size a
  hwx3_3 : ∀ i : grid3.Coords, EltTy.bits .f32 = 32 ∨ (Rect.block (s := S16x2048x128) S1x512x128.size (cc3_transform_3 i) (hinb3_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2x512x64_S2x2048x64_S2x512x2048_2_2_1_1_0_0 : DotDims S2x512x64 S2x2048x64 S2x512x2048 where
  lhsContracting := [2]
  rhsContracting := [2]
  lhsNonContracting := [1]
  rhsNonContracting := [1]
  lhsBatch := [0]
  rhsBatch := [0]
  wf := dot_S2x512x64_S2x2048x64_S2x512x2048_2_2_1_1_0_0_wf
def dot_S2x512x2048_S2x2048x64_S2x512x64_2_1_1_2_0_0 : DotDims S2x512x2048 S2x2048x64 S2x512x64 where
  lhsContracting := [2]
  rhsContracting := [1]
  lhsNonContracting := [1]
  rhsNonContracting := [2]
  lhsBatch := [0]
  rhsBatch := [0]
  wf := dot_S2x512x2048_S2x2048x64_S2x512x64_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S1x2x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S1x2x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1x2x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S_, .f32⟩
  | .hbm, ⟨34, _⟩ => ⟨S2x16x2048, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x64, .f32⟩
  | .hbm, ⟨46, _⟩ => ⟨S2x2048x16x64, .f32⟩
  | .hbm, ⟨47, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Layout.lean ====
/-
  The host re-layouts of the kernel's @main, read at an index.
  Reshapes keep the row-major position and the two transposes swap the head (or pair) axis with the sequence axis, so
  each composite reads its operand at coordinates given by quotients and remainders of the literal extents:
  row r of the flattened [4096,1024] input is (r / 2048, r % 2048); pair g, member r of the pair layout is batch g / 8,
  head (g % 8)·2 + r; and column e of the result is head e / 64, lane e % 64, that is pair (e / 64) / 2, lane
  ((e / 64) % 2)·64 + e % 64 of the attention region's output.
-/
import proofs.«169522_j80668075753671_2_alg».proof.Proof.Gen.KernelIdeal
import Idealize.ShloMosaic.Lib.Pipeline.Value
import Idealize.ShloMosaic.Lib.ValueIdx

noncomputable section

namespace Cert.KernelIdeal.Layout

open Cert.KernelIdeal Idealize.ShloMosaic Idealize.ShloMosaic.ValueIdx

variable [Facts₀]
open Facts₀

variable {α : Type}

/-- A [2,2048,1024] array flattened to [4096,1024], as the first operand of a projection region. -/
abbrev flat (x : S2x2048x1024.Idx → α) : S4096x1024.Idx → α := shapeCast S4096x1024 x shapeCasts_S2x2048x1024_S4096x1024
/-- A bias vector as a one-row matrix. -/
abbrev row (β : S1024.Idx → α) : S1x1024.Idx → α := shapeCast S1x1024 β shapeCasts_S1024_S1x1024
/-- A projected [4096,1024] array viewed [2,2048,1024] again. -/
abbrev unflat (y : S4096x1024.Idx → α) : S2x2048x1024.Idx → α := shapeCast S2x2048x1024 y shapeCasts_S4096x1024_S2x2048x1024
/-- A [2,2048,1024] array re-laid into head pairs [16,2,2048,64]: split the model axis into 16 heads of 64, move the
    head axis before the sequence axis, split the heads into 8 pairs, merge batch and pair. -/
abbrev pairs (y : S2x2048x1024.Idx → α) : S16x2x2048x64.Idx → α :=
  shapeCast S16x2x2048x64
    (shapeCast S2x8x2x2048x64
      (transpose S2x16x2048x64 [0, 2, 1, 3] (shapeCast S2x2048x16x64 y shapeCasts_S2x2048x1024_S2x2048x16x64)
        transposes_S2x2048x16x64_S2x16x2048x64_0_2_1_3)
      shapeCasts_S2x16x2048x64_S2x8x2x2048x64)
    shapeCasts_S2x8x2x2048x64_S16x2x2048x64
/-- The attention output [16,2048,128] re-laid back to [2,2048,1024]. -/
abbrev unpairs (z : S16x2048x128.Idx → α) : S2x2048x1024.Idx → α :=
  shapeCast S2x2048x1024
    (shapeCast S2x2048x16x64
      (transpose S2x2048x8x2x64 [0, 2, 1, 3, 4] (shapeCast S2x8x2048x2x64 z shapeCasts_S16x2048x128_S2x8x2048x2x64)
        transposes_S2x8x2048x2x64_S2x2048x8x2x64_0_2_1_3_4)
      shapeCasts_S2x2048x8x2x64_S2x2048x16x64)
    shapeCasts_S2x2048x16x64_S2x2048x1024

/-- Row `r` of the flattened input is batch `r / 2048`, position `r % 2048`. -/
theorem flat_apply (x : S2x2048x1024.Idx → α) (r : Fin 4096) (k : Fin 1024) :
    flat x (ix2 r k) = x (ix3 (⟨r.val / 2048, by omega⟩ : Fin 2) (⟨r.val % 2048, Nat.mod_lt _ (by decide)⟩ : Fin 2048) k) :=
  shapeCast_apply x shapeCasts_S2x2048x1024_S4096x1024 (ix2 r k) _ (by
    rewrite [Shape.rowMajor_val_three, Shape.rowMajor_val_two]
    have hr : r.val < 4096 := r.isLt
    show (r.val / 2048 * 2048 + r.val % 2048) * 1024 + k.val = r.val * 1024 + k.val
    omega)

/-- The one-row bias matrix at column `e` is the bias at `e`. -/
theorem row_apply (β : S1024.Idx → α) (e : Fin 1024) : row β (ix2 (0 : Fin 1) e) = β (ix1 e) :=
  shapeCast_apply β shapeCasts_S1024_S1x1024 (ix2 (0 : Fin 1) e) _ (by
    rewrite [Shape.rowMajor_val_one, Shape.rowMajor_val_two]
    show e.val = 0 * 1024 + e.val
    omega)

/-- Batch `b`, position `s` of the re-viewed projection is row `b·2048 + s`. -/
theorem unflat_apply (y : S4096x1024.Idx → α) (b : Fin 2) (s : Fin 2048) (e : Fin 1024) :
    unflat y (ix3 b s e) = y (ix2 (⟨b.val * 2048 + s.val, by omega⟩ : Fin 4096) e) :=
  shapeCast_apply y shapeCasts_S4096x1024_S2x2048x1024 (ix3 b s e) _ (by
    rewrite [Shape.rowMajor_val_two, Shape.rowMajor_val_three]
    show (b.val * 2048 + s.val) * 1024 + e.val = (b.val * 2048 + s.val) * 1024 + e.val
    rfl)

/-- Pair `g`, member `r`, position `s`, lane `d` of the pair layout is batch `g / 8`, position `s`, column
    `((g % 8)·2 + r)·64 + d` of the operand. -/
theorem pairs_apply (y : S2x2048x1024.Idx → α) (g : Fin 16) (r : Fin 2) (s : Fin 2048) (d : Fin 64) :
    pairs y (ix4 g r s d)
      = y (ix3 (⟨g.val / 8, by omega⟩ : Fin 2) s (⟨(g.val % 8 * 2 + r.val) * 64 + d.val, by omega⟩ : Fin 1024)) := by
  have hg : g.val < 16 := g.isLt
  have hr : r.val < 2 := r.isLt
  have hs : s.val < 2048 := s.isLt
  have hd : d.val < 64 := d.isLt
  refine (shapeCast_apply _ shapeCasts_S2x8x2x2048x64_S16x2x2048x64 (ix4 g r s d)
    (ix5 (⟨g.val / 8, by omega⟩ : Fin 2) (⟨g.val % 8, Nat.mod_lt _ (by decide)⟩ : Fin 8) r s d) (by
      rewrite [Shape.rowMajor_val_five, Shape.rowMajor_val_four]
      show ((((g.val / 8) * 8 + g.val % 8) * 2 + r.val) * 2048 + s.val) * 64 + d.val = ((g.val * 2 + r.val) * 2048 + s.val) * 64 + d.val
      omega)).trans ?_
  refine (shapeCast_apply _ shapeCasts_S2x16x2048x64_S2x8x2x2048x64
    (ix5 (⟨g.val / 8, by omega⟩ : Fin 2) (⟨g.val % 8, Nat.mod_lt _ (by decide)⟩ : Fin 8) r s d)
    (ix4 (⟨g.val / 8, by omega⟩ : Fin 2) (⟨g.val % 8 * 2 + r.val, by omega⟩ : Fin 16) s d) (by
      rewrite [Shape.rowMajor_val_four, Shape.rowMajor_val_five]
      show (((g.val / 8) * 16 + (g.val % 8 * 2 + r.val)) * 2048 + s.val) * 64 + d.val = ((((g.val / 8) * 8 + g.val % 8) * 2 + r.val) * 2048 + s.val) * 64 + d.val
      omega)).trans ?_
  refine (transpose_apply [0, 2, 1, 3] _ transposes_S2x2048x16x64_S2x16x2048x64_0_2_1_3
    (ix4 (⟨g.val / 8, by omega⟩ : Fin 2) (⟨g.val % 8 * 2 + r.val, by omega⟩ : Fin 16) s d)
    (ix4 (⟨g.val / 8, by omega⟩ : Fin 2) s (⟨g.val % 8 * 2 + r.val, by omega⟩ : Fin 16) d) (fun b => by
      match b with
      | ⟨0, _⟩ => rfl
      | ⟨1, _⟩ => rfl
      | ⟨2, _⟩ => rfl
      | ⟨3, _⟩ => rfl)).trans ?_
  exact shapeCast_apply y shapeCasts_S2x2048x1024_S2x2048x16x64
    (ix4 (⟨g.val / 8, by omega⟩ : Fin 2) s (⟨g.val % 8 * 2 + r.val, by omega⟩ : Fin 16) d) _ (by
      rewrite [Shape.rowMajor_val_three, Shape.rowMajor_val_four]
      show ((g.val / 8) * 2048 + s.val) * 1024 + ((g.val % 8 * 2 + r.val) * 64 + d.val) = (((g.val / 8) * 2048 + s.val) * 16 + (g.val % 8 * 2 + r.val)) * 64 + d.val
      omega)

/-- Batch `b`, position `s`, column `e` of the result is pair `b·8 + (e / 64) / 2`, position `s`, lane
    `((e / 64) % 2)·64 + e % 64` of the attention region's output. -/
theorem unpairs_apply (z : S16x2048x128.Idx → α) (b : Fin 2) (s : Fin 2048) (e : Fin 1024) :
    unpairs z (ix3 b s e)
      = z (ix3 (⟨b.val * 8 + e.val / 64 / 2, by omega⟩ : Fin 16) s (⟨e.val / 64 % 2 * 64 + e.val % 64, by omega⟩ : Fin 128)) := by
  have hb : b.val < 2 := b.isLt
  have hs : s.val < 2048 := s.isLt
  have he : e.val < 1024 := e.isLt
  refine (shapeCast_apply _ shapeCasts_S2x2048x16x64_S2x2048x1024 (ix3 b s e)
    (ix4 b s (⟨e.val / 64, by omega⟩ : Fin 16) (⟨e.val % 64, Nat.mod_lt _ (by decide)⟩ : Fin 64)) (by
      rewrite [Shape.rowMajor_val_four, Shape.rowMajor_val_three]
      show ((b.val * 2048 + s.val) * 16 + e.val / 64) * 64 + e.val % 64 = (b.val * 2048 + s.val) * 1024 + e.val
      omega)).trans ?_
  refine (shapeCast_apply _ shapeCasts_S2x2048x8x2x64_S2x2048x16x64
    (ix4 b s (⟨e.val / 64, by omega⟩ : Fin 16) (⟨e.val % 64, Nat.mod_lt _ (by decide)⟩ : Fin 64))
    (ix5 b s (⟨e.val / 64 / 2, by omega⟩ : Fin 8) (⟨e.val / 64 % 2, Nat.mod_lt _ (by decide)⟩ : Fin 2) (⟨e.val % 64, Nat.mod_lt _ (by decide)⟩ : Fin 64)) (by
      rewrite [Shape.rowMajor_val_five, Shape.rowMajor_val_four]
      show (((b.val * 2048 + s.val) * 8 + e.val / 64 / 2) * 2 + e.val / 64 % 2) * 64 + e.val % 64 = ((b.val * 2048 + s.val) * 16 + e.val / 64) * 64 + e.val % 64
      omega)).trans ?_
  refine (transpose_apply [0, 2, 1, 3, 4] _ transposes_S2x8x2048x2x64_S2x2048x8x2x64_0_2_1_3_4
    (ix5 b s (⟨e.val / 64 / 2, by omega⟩ : Fin 8) (⟨e.val / 64 % 2, Nat.mod_lt _ (by decide)⟩ : Fin 2) (⟨e.val % 64, Nat.mod_lt _ (by decide)⟩ : Fin 64))
    (ix5 b (⟨e.val / 64 / 2, by omega⟩ : Fin 8) s (⟨e.val / 64 % 2, Nat.mod_lt _ (by decide)⟩ : Fin 2) (⟨e.val % 64, Nat.mod_lt _ (by decide)⟩ : Fin 64)) (fun a => by
      match a with
      | ⟨0, _⟩ => rfl
      | ⟨1, _⟩ => rfl
      | ⟨2, _⟩ => rfl
      | ⟨3, _⟩ => rfl
      | ⟨4, _⟩ => rfl)).trans ?_
  exact shapeCast_apply z shapeCasts_S16x2048x128_S2x8x2048x2x64
    (ix5 b (⟨e.val / 64 / 2, by omega⟩ : Fin 8) s (⟨e.val / 64 % 2, Nat.mod_lt _ (by decide)⟩ : Fin 2) (⟨e.val % 64, Nat.mod_lt _ (by decide)⟩ : Fin 64)) _ (by
      rewrite [Shape.rowMajor_val_three, Shape.rowMajor_val_five]
      show ((b.val * 8 + e.val / 64 / 2) * 2048 + s.val) * 128 + (e.val / 64 % 2 * 64 + e.val % 64) = (((b.val * 8 + e.val / 64 / 2) * 2048 + s.val) * 2 + e.val / 64 % 2) * 64 + e.val % 64
      omega)

end Cert.KernelIdeal.Layout

end
-- ==== Proof.ProjBody.lean ====
/-
  The three projection kernels' bodies, read at one element of the stored block: each is
  (Σ_k x[p,k] · W[k,q]) + β[0,q] on the extended reals.
-/
import proofs.«169522_j80668075753671_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.ProjBody

open Cert.KernelIdeal Cert.KernelIdeal.Gen Idealize.ShloMosaic Idealize.ShloMosaic.ValueIdx

variable [Facts₀]

/-- A [1024,1024] × [1024,1024] matrix product into a zero accumulator, at (p, q): the sum over the contracted
    position k of left[p,k] · right[k,q]. -/
theorem matmul_row_col (a b : Vec Ideal S1024x1024 .f32) (p q : Fin 1024) :
    (FloatOps.matmul (F := Ideal) dot_S1024x1024_S1024x1024_S1024x1024_1_0_0_1_n_n none (truncf (F := Ideal) .bf16 a bitsLt_bf16_f32) (truncf (F := Ideal) .bf16 b bitsLt_bf16_f32)
        (constant (F := Ideal) S1024x1024 .f32 0x00000000#32) (ix2 p q) : EReal)
      = ∑ k : Fin 1024, a (ix2 p k) * b (ix2 k q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun x => Fin.ext (by
      match x with
      | ⟨0, _⟩ =>
        show (dot_S1024x1024_S1024x1024_S1024x1024_1_0_0_1_n_n.lhsIdx (ix2 p q) _ 0).val = p.val
        unfold DotDims.lhsIdx
        rw [dif_neg (show ¬(0 : Fin S1024x1024.rank) ∈ dot_S1024x1024_S1024x1024_S1024x1024_1_0_0_1_n_n.lhsBatch from List.not_mem_nil),
          dif_pos (show (0 : Fin S1024x1024.rank) ∈ dot_S1024x1024_S1024x1024_S1024x1024_1_0_0_1_n_n.lhsNonContracting from List.mem_singleton.mpr rfl)]
        rfl
      | ⟨1, _⟩ => exact (dot_S1024x1024_S1024x1024_S1024x1024_1_0_0_1_n_n.lhsIdx_val_of_single rfl (ix2 p q) _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun x => Fin.ext (by
      match x with
      | ⟨0, _⟩ => exact (dot_S1024x1024_S1024x1024_S1024x1024_1_0_0_1_n_n.rhsIdx_val_of_single rfl (ix2 p q) _).trans hk
      | ⟨1, _⟩ =>
        show (dot_S1024x1024_S1024x1024_S1024x1024_1_0_0_1_n_n.rhsIdx (ix2 p q) _ 1).val = q.val
        unfold DotDims.rhsIdx
        rw [dif_neg (show ¬(1 : Fin S1024x1024.rank) ∈ dot_S1024x1024_S1024x1024_S1024x1024_1_0_0_1_n_n.rhsBatch from List.not_mem_nil),
          dif_pos (show (1 : Fin S1024x1024.rank) ∈ dot_S1024x1024_S1024x1024_S1024x1024_1_0_0_1_n_n.rhsNonContracting from List.mem_singleton.mpr rfl)]
        rfl)
  rw [el, er]
  rfl

/-- The projection body at row `p`, column `q` of its block: the row of the input block against the column of the
    weight matrix, summed over the 1024 contracted positions, plus the bias at that column. The two casts to bf16 and
    the cast back are the identity on extended reals, and the matrix product into a zero accumulator is the plain sum. -/
theorem pay0_apply (v0 v3 : Vec Ideal S1024x1024 .f32) (v6 : Vec Ideal S1x1024 .f32) (p q : Fin 1024) :
    k0_pay1 (F := Ideal) v0 v3 v6 (ix2 p q) = (∑ k : Fin 1024, v0 (ix2 p k) * v3 (ix2 k q)) + v6 (ix2 (0 : Fin 1) q) := by
  unfold k0_pay1
  rw [shapeCast_self, shapeCast_self, shapeCast_self]
  show (FloatOps.matmul (F := Ideal) dot_S1024x1024_S1024x1024_S1024x1024_1_0_0_1_n_n none (truncf (F := Ideal) .bf16 v0 bitsLt_bf16_f32) (truncf (F := Ideal) .bf16 v3 bitsLt_bf16_f32)
      (constant (F := Ideal) S1024x1024 .f32 0x00000000#32) (ix2 p q) : EReal)
    + broadcastTo S1024x1024 v6 broadcasts_S1x1024_S1024x1024 (ix2 p q) = _
  refine congrArg₂ (· + ·) ?_ ?_
  · exact matmul_row_col _ _ p q
  · exact broadcastTo_apply v6 broadcasts_S1x1024_S1024x1024 (ix2 p q) (ix2 (0 : Fin 1) q) (fun a => by
      match a with
      | ⟨0, _⟩ => rfl
      | ⟨1, _⟩ => rfl)

/-- The projection body at row `p`, column `q` of its block: the row of the input block against the column of the
    weight matrix, summed over the 1024 contracted positions, plus the bias at that column. The two casts to bf16 and
    the cast back are the identity on extended reals, and the matrix product into a zero accumulator is the plain sum. -/
theorem pay1_apply (v0 v3 : Vec Ideal S1024x1024 .f32) (v6 : Vec Ideal S1x1024 .f32) (p q : Fin 1024) :
    k1_pay1 (F := Ideal) v0 v3 v6 (ix2 p q) = (∑ k : Fin 1024, v0 (ix2 p k) * v3 (ix2 k q)) + v6 (ix2 (0 : Fin 1) q) := by
  unfold k1_pay1
  rw [shapeCast_self, shapeCast_self, shapeCast_self]
  show (FloatOps.matmul (F := Ideal) dot_S1024x1024_S1024x1024_S1024x1024_1_0_0_1_n_n none (truncf (F := Ideal) .bf16 v0 bitsLt_bf16_f32) (truncf (F := Ideal) .bf16 v3 bitsLt_bf16_f32)
      (constant (F := Ideal) S1024x1024 .f32 0x00000000#32) (ix2 p q) : EReal)
    + broadcastTo S1024x1024 v6 broadcasts_S1x1024_S1024x1024 (ix2 p q) = _
  refine congrArg₂ (· + ·) ?_ ?_
  · exact matmul_row_col _ _ p q
  · exact broadcastTo_apply v6 broadcasts_S1x1024_S1024x1024 (ix2 p q) (ix2 (0 : Fin 1) q) (fun a => by
      match a with
      | ⟨0, _⟩ => rfl
      | ⟨1, _⟩ => rfl)

/-- The projection body at row `p`, column `q` of its block: the row of the input block against the column of the
    weight matrix, summed over the 1024 contracted positions, plus the bias at that column. The two casts to bf16 and
    the cast back are the identity on extended reals, and the matrix product into a zero accumulator is the plain sum. -/
theorem pay2_apply (v0 v3 : Vec Ideal S1024x1024 .f32) (v6 : Vec Ideal S1x1024 .f32) (p q : Fin 1024) :
    k2_pay1 (F := Ideal) v0 v3 v6 (ix2 p q) = (∑ k : Fin 1024, v0 (ix2 p k) * v3 (ix2 k q)) + v6 (ix2 (0 : Fin 1) q) := by
  unfold k2_pay1
  rw [shapeCast_self, shapeCast_self, shapeCast_self]
  show (FloatOps.matmul (F := Ideal) dot_S1024x1024_S1024x1024_S1024x1024_1_0_0_1_n_n none (truncf (F := Ideal) .bf16 v0 bitsLt_bf16_f32) (truncf (F := Ideal) .bf16 v3 bitsLt_bf16_f32)
      (constant (F := Ideal) S1024x1024 .f32 0x00000000#32) (ix2 p q) : EReal)
    + broadcastTo S1024x1024 v6 broadcasts_S1x1024_S1024x1024 (ix2 p q) = _
  refine congrArg₂ (· + ·) ?_ ?_
  · exact matmul_row_col _ _ p q
  · exact broadcastTo_apply v6 broadcasts_S1x1024_S1024x1024 (ix2 p q) (ix2 (0 : Fin 1) q) (fun a => by
      match a with
      | ⟨0, _⟩ => rfl
      | ⟨1, _⟩ => rfl)

end Cert.KernelIdeal.ProjBody

end
-- ==== Proof.Proj0.lean ====
/-
  Projection region 0: its output array after the region, as one function of the arrays the region finds.
  The grid has four points; point t computes rows t·1024 … t·1024+1023 of the [4096,1024] output from the same rows
  of the input, the whole weight matrix and the bias row. Row r, column e of the output is
  (Σ_k x[r,k] · W[k,e]) + β[0,e], and the four blocks tile the array.
-/
import proofs.«169522_j80668075753671_2_alg».proof.Proof.Gen.KernelIdeal.Frame
import proofs.«169522_j80668075753671_2_alg».proof.Proof.ProjBody

set_option maxRecDepth 16384

noncomputable section

open scoped BigOperators

namespace Cert.KernelIdeal.Proj0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row `i 0`, column `i 1` of the projected array: the input row against the weight column, plus the bias. -/
def G (x : S4096x1024.Idx → EReal) (W : S1024x1024.Idx → EReal) (β : S1x1024.Idx → EReal) : S4096x1024.Idx → EReal :=
  fun i => (∑ k : Fin 1024, x (ix2 (n0 := 4096) (i 0) k) * W (ix2 k (n1 := 1024) (i 1))) + β (ix2 (0 : Fin 1) (n1 := 1024) (i 1))

/-- The index maps over the grid: the input rows move with the output rows, the weight matrix and the bias stay. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 3 ∧ win0_3.index t (1 : Fin 2) = 0 :=
  (by decide +kernel : ∀ t : Fin grid0.N, _)

/-- Every block row of the output is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-- What point `t` writes back is block `t` of `G` of the arrays the region finds. -/
theorem flushed_eq (c : Dev nD) (t : Fin cfg0.N) :
    (dat0 V c).flushed 3 t = ((cfg0.win 3).blk t).view.read (Elt Ideal) (G (V c main_v0) (V c main_arg3) (V c main_v1)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024) hz2]
  obtain ⟨e0, e1, e2, e3, e4, e5, e6, e7⟩ := idx_facts t
  funext j
  obtain ⟨p, q, rfl⟩ : ∃ (p : Fin 1024) (q : Fin 1024), j = ix2 p q := ⟨j 0, j 1, eq_ix2 j⟩
  show k0_pay1 (F := Ideal) (iblk0 V c 0 t) (iblk0 V c 1 t) (iblk0 V c 2 t) (ix2 p q)
    = G (V c main_v0) (V c main_arg3) (V c main_v1) (((cfg0.win 3).blk t).view.emb (ix2 p q))
  refine (ProjBody.pay0_apply (iblk0 V c 0 t) (iblk0 V c 1 t) (iblk0 V c 2 t) p q).trans ?_
  unfold G
  refine congrArg₂ (· + ·) (Finset.sum_congr rfl fun k _ => congrArg₂ (· * ·) ?_ ?_) ?_
  · show V c main_v0 (((cfg0.win 0).blk t).view.emb (ix2 p k)) = V c main_v0 _
    refine congrArg (V c main_v0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  · show V c main_arg3 (((cfg0.win 1).blk t).view.emb (ix2 k q)) = V c main_arg3 _
    refine congrArg (V c main_arg3) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  · show V c main_v1 (((cfg0.win 2).blk t).view.emb (ix2 (0 : Fin 1) q)) = V c main_v1 _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega

/-- An index of the output array lies in point `t`'s block iff each coordinate is in the block's range. -/
theorem mem_blk (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- The four row blocks tile the output: row r is in the block of point r / 1024. -/
theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region. -/
theorem final (c : Dev nD) : (dat0 V c).arrAt 3 cfg0.N = G (V c main_v0) (V c main_arg3) (V c main_v1) :=
  (dat0 V c).arrAt_eq_of_cover 3 (G (V c main_v0) (V c main_arg3) (V c main_v1)) (fun t _ => flushed_eq V c t) cover

end Cert.KernelIdeal.Proj0

end
-- ==== Proof.Proj1.lean ====
/-
  Projection region 1: its output array after the region, as one function of the arrays the region finds.
  The grid has four points; point t computes rows t·1024 … t·1024+1023 of the [4096,1024] output from the same rows
  of the input, the whole weight matrix and the bias row. Row r, column e of the output is
  (Σ_k x[r,k] · W[k,e]) + β[0,e], and the four blocks tile the array.
-/
import proofs.«169522_j80668075753671_2_alg».proof.Proof.Gen.KernelIdeal.Frame
import proofs.«169522_j80668075753671_2_alg».proof.Proof.ProjBody

set_option maxRecDepth 16384

noncomputable section

open scoped BigOperators

namespace Cert.KernelIdeal.Proj1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row `i 0`, column `i 1` of the projected array: the input row against the weight column, plus the bias. -/
def G (x : S4096x1024.Idx → EReal) (W : S1024x1024.Idx → EReal) (β : S1x1024.Idx → EReal) : S4096x1024.Idx → EReal :=
  fun i => (∑ k : Fin 1024, x (ix2 (n0 := 4096) (i 0) k) * W (ix2 k (n1 := 1024) (i 1))) + β (ix2 (0 : Fin 1) (n1 := 1024) (i 1))

/-- The index maps over the grid: the input rows move with the output rows, the weight matrix and the bias stay. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 3 ∧ win1_3.index t (1 : Fin 2) = 0 :=
  (by decide +kernel : ∀ t : Fin grid1.N, _)

/-- Every block row of the output is some point's. -/
theorem idx_onto : ∀ q0 : Fin 4, ∃ t : Fin cfg1.N, win1_3.index t = ![q0.val, 0] :=
  (by decide +kernel : ∀ q0 : Fin 4, ∃ t : Fin grid1.N, win1_3.index t = ![q0.val, 0])

/-- What point `t` writes back is block `t` of `G` of the arrays the region finds. -/
theorem flushed_eq (c : Dev nD) (t : Fin cfg1.N) :
    (dat1 V c).flushed 3 t = ((cfg1.win 3).blk t).view.read (Elt Ideal) (G (V c main_v4) (V c main_arg5) (V c main_v5)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1x1024) hz2]
  obtain ⟨e0, e1, e2, e3, e4, e5, e6, e7⟩ := idx_facts t
  funext j
  obtain ⟨p, q, rfl⟩ : ∃ (p : Fin 1024) (q : Fin 1024), j = ix2 p q := ⟨j 0, j 1, eq_ix2 j⟩
  show k1_pay1 (F := Ideal) (iblk1 V c 0 t) (iblk1 V c 1 t) (iblk1 V c 2 t) (ix2 p q)
    = G (V c main_v4) (V c main_arg5) (V c main_v5) (((cfg1.win 3).blk t).view.emb (ix2 p q))
  refine (ProjBody.pay1_apply (iblk1 V c 0 t) (iblk1 V c 1 t) (iblk1 V c 2 t) p q).trans ?_
  unfold G
  refine congrArg₂ (· + ·) (Finset.sum_congr rfl fun k _ => congrArg₂ (· * ·) ?_ ?_) ?_
  · show V c main_v4 (((cfg1.win 0).blk t).view.emb (ix2 p k)) = V c main_v4 _
    refine congrArg (V c main_v4) (funext fun a => Fin.ext ?_)
    match a with
    | ⟨0, _⟩ => show win1_0.index t (0 : Fin 2) * 1024 + 1 * p.val = win1_3.index t (0 : Fin 2) * 1024 + 1 * p.val; omega
    | ⟨1, _⟩ => show win1_0.index t (1 : Fin 2) * 1024 + 1 * k.val = k.val; omega
  · show V c main_arg5 (((cfg1.win 1).blk t).view.emb (ix2 k q)) = V c main_arg5 _
    refine congrArg (V c main_arg5) (funext fun a => Fin.ext ?_)
    match a with
    | ⟨0, _⟩ => show win1_1.index t (0 : Fin 2) * 1024 + 1 * k.val = k.val; omega
    | ⟨1, _⟩ => show win1_1.index t (1 : Fin 2) * 1024 + 1 * q.val = win1_3.index t (1 : Fin 2) * 1024 + 1 * q.val; omega
  · show V c main_v5 (((cfg1.win 2).blk t).view.emb (ix2 (0 : Fin 1) q)) = V c main_v5 _
    refine congrArg (V c main_v5) (funext fun a => Fin.ext ?_)
    match a with
    | ⟨0, _⟩ => show win1_2.index t (0 : Fin 2) * 1 + 1 * 0 = 0; omega
    | ⟨1, _⟩ => show win1_2.index t (1 : Fin 2) * 1024 + 1 * q.val = win1_3.index t (1 : Fin 2) * 1024 + 1 * q.val; omega

/-- An index of the output array lies in point `t`'s block iff each coordinate is in the block's range. -/
theorem mem_blk (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v6).slice (win1_3.rect t)).set ↔ _
  rw [View.set_slice_whole, Rect.mem_set_unit]
  exact Iff.rfl

/-- The four row blocks tile the output: row r is in the block of point r / 1024. -/
theorem cover (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the region. -/
theorem final (c : Dev nD) : (dat1 V c).arrAt 3 cfg1.N = G (V c main_v4) (V c main_arg5) (V c main_v5) :=
  (dat1 V c).arrAt_eq_of_cover 3 (G (V c main_v4) (V c main_arg5) (V c main_v5)) (fun t _ => flushed_eq V c t) cover

end Cert.KernelIdeal.Proj1

end
-- ==== Proof.Proj2.lean ====
/-
  Projection region 2: its output array after the region, as one function of the arrays the region finds.
  The grid has four points; point t computes rows t·1024 … t·1024+1023 of the [4096,1024] output from the same rows
  of the input, the whole weight matrix and the bias row. Row r, column e of the output is
  (Σ_k x[r,k] · W[k,e]) + β[0,e], and the four blocks tile the array.
-/
import proofs.«169522_j80668075753671_2_alg».proof.Proof.Gen.KernelIdeal.Frame
import proofs.«169522_j80668075753671_2_alg».proof.Proof.ProjBody

set_option maxRecDepth 16384

noncomputable section

open scoped BigOperators

namespace Cert.KernelIdeal.Proj2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row `i 0`, column `i 1` of the projected array: the input row against the weight column, plus the bias. -/
def G (x : S4096x1024.Idx → EReal) (W : S1024x1024.Idx → EReal) (β : S1x1024.Idx → EReal) : S4096x1024.Idx → EReal :=
  fun i => (∑ k : Fin 1024, x (ix2 (n0 := 4096) (i 0) k) * W (ix2 k (n1 := 1024) (i 1))) + β (ix2 (0 : Fin 1) (n1 := 1024) (i 1))

/-- The index maps over the grid: the input rows move with the output rows, the weight matrix and the bias stay. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 3 ∧ win2_3.index t (1 : Fin 2) = 0 :=
  (by decide +kernel : ∀ t : Fin grid2.N, _)

/-- Every block row of the output is some point's. -/
theorem idx_onto : ∀ q0 : Fin 4, ∃ t : Fin cfg2.N, win2_3.index t = ![q0.val, 0] :=
  (by decide +kernel : ∀ q0 : Fin 4, ∃ t : Fin grid2.N, win2_3.index t = ![q0.val, 0])

/-- What point `t` writes back is block `t` of `G` of the arrays the region finds. -/
theorem flushed_eq (c : Dev nD) (t : Fin cfg2.N) :
    (dat2 V c).flushed 3 t = ((cfg2.win 3).blk t).view.read (Elt Ideal) (G (V c main_v8) (V c main_arg7) (V c main_v9)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  obtain ⟨e0, e1, e2, e3, e4, e5, e6, e7⟩ := idx_facts t
  funext j
  obtain ⟨p, q, rfl⟩ : ∃ (p : Fin 1024) (q : Fin 1024), j = ix2 p q := ⟨j 0, j 1, eq_ix2 j⟩
  show k2_pay1 (F := Ideal) (iblk2 V c 0 t) (iblk2 V c 1 t) (iblk2 V c 2 t) (ix2 p q)
    = G (V c main_v8) (V c main_arg7) (V c main_v9) (((cfg2.win 3).blk t).view.emb (ix2 p q))
  refine (ProjBody.pay2_apply (iblk2 V c 0 t) (iblk2 V c 1 t) (iblk2 V c 2 t) p q).trans ?_
  unfold G
  refine congrArg₂ (· + ·) (Finset.sum_congr rfl fun k _ => congrArg₂ (· * ·) ?_ ?_) ?_
  · show V c main_v8 (((cfg2.win 0).blk t).view.emb (ix2 p k)) = V c main_v8 _
    refine congrArg (V c main_v8) (funext fun a => Fin.ext ?_)
    match a with
    | ⟨0, _⟩ => show win2_0.index t (0 : Fin 2) * 1024 + 1 * p.val = win2_3.index t (0 : Fin 2) * 1024 + 1 * p.val; omega
    | ⟨1, _⟩ => show win2_0.index t (1 : Fin 2) * 1024 + 1 * k.val = k.val; omega
  · show V c main_arg7 (((cfg2.win 1).blk t).view.emb (ix2 k q)) = V c main_arg7 _
    refine congrArg (V c main_arg7) (funext fun a => Fin.ext ?_)
    match a with
    | ⟨0, _⟩ => show win2_1.index t (0 : Fin 2) * 1024 + 1 * k.val = k.val; omega
    | ⟨1, _⟩ => show win2_1.index t (1 : Fin 2) * 1024 + 1 * q.val = win2_3.index t (1 : Fin 2) * 1024 + 1 * q.val; omega
  · show V c main_v9 (((cfg2.win 2).blk t).view.emb (ix2 (0 : Fin 1) q)) = V c main_v9 _
    refine congrArg (V c main_v9) (funext fun a => Fin.ext ?_)
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the output array lies in point `t`'s block iff each coordinate is in the block's range. -/
theorem mem_blk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v10).slice (win2_3.rect t)).set ↔ _
  rw [View.set_slice_whole, Rect.mem_set_unit]
  exact Iff.rfl

/-- The four row blocks tile the output: row r is in the block of point r / 1024. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region. -/
theorem final (c : Dev nD) : (dat2 V c).arrAt 3 cfg2.N = G (V c main_v8) (V c main_arg7) (V c main_v9) :=
  (dat2 V c).arrAt_eq_of_cover 3 (G (V c main_v8) (V c main_arg7) (V c main_v9)) (fun t _ => flushed_eq V c t) cover

end Cert.KernelIdeal.Proj2

end
-- ==== Proof.Spec.lean ====
/-
  The mathematics both programs compute, stated once over plain coordinates.

  Three linear projections  y[b,s,e] = Σ_k x[b,s,k] · W[k,e] + β[e]  of the query, key and value inputs, then
  scaled-dot-product attention head by head: head h owns the 64 columns h·64 … h·64+63, and the result at
  (b, s, h·64+d) is  Σ_k w_k · V[b,k,h·64+d]  where the weights w_k = exp(S_k − max S) / Σ_k' exp(S_k' − max S)
  are the softmax of the scores  S_k = (Σ_d' Q[b,s,h·64+d'] · K[b,k,h·64+d']) · (1/8).
  The score row, its softmax and the weighted sum are one function `core` of a query row, the key rows and a
  value column; both programs are shown to be `core` of the same rows and columns.
-/
import Idealize.ShloMosaic.PureOps.Ideal
import Idealize.ShloMosaic.Lib.ValueIdx

noncomputable section

open scoped BigOperators

namespace Cert.Spec

open Idealize.ShloMosaic Idealize.ShloMosaic.ValueIdx

/-- The scale 1/√64 = 0.125, as the f32 word both programs carry. -/
abbrev scale : EReal := Ideal.ofBits .f32 0x3E000000#32
/-- −∞, the value a row maximum starts from. -/
abbrev negInf : EReal := Ideal.ofBits .f32 0xFF800000#32

/-- The maximum of a row of 2048 scores, folded from −∞. -/
def rowMax (S : Fin 2048 → EReal) : EReal := (Finset.univ : Finset (Fin 2048)).fold max negInf S

/-- The softmax weight of position `k` in a row of scores. -/
def weight (S : Fin 2048 → EReal) (k : Fin 2048) : EReal :=
  Ideal.div (Ideal.exp (S k - rowMax S)) (∑ k' : Fin 2048, Ideal.exp (S k' - rowMax S))

/-- One output element of one head: the query row `Qr` against every key row `Kr k`, scaled, softmaxed over
    `k`, and the weights summed against the value column `Vc`. -/
def core (Qr : Fin 64 → EReal) (Kr : Fin 2048 → Fin 64 → EReal) (Vc : Fin 2048 → EReal) : EReal :=
  ∑ k : Fin 2048, weight (fun k => (∑ d : Fin 64, Qr d * Kr k d) * scale) k * Vc k

/-- The linear projection of a [2, 2048, 1024] input by a [1024, 1024] matrix and a bias. -/
def proj (x : (⟨3, ![2, 2048, 1024]⟩ : Shape).Idx → EReal) (W : (⟨2, ![1024, 1024]⟩ : Shape).Idx → EReal)
    (β : (⟨1, ![1024]⟩ : Shape).Idx → EReal) (b : Fin 2) (s : Fin 2048) (e : Fin 1024) : EReal :=
  (∑ k : Fin 1024, x (ix3 b s k) * W (ix2 k e)) + β (ix1 e)

/-- Column `h·64 + d` of the model dimension: lane `d` of head `h`. -/
def col (h : Fin 16) (d : Fin 64) : Fin 1024 := ⟨h.val * 64 + d.val, by omega⟩

/-- Attention over projected inputs `Q K V`, at batch `b`, head `h`, query position `s`, lane `d`. -/
def attend (Q K V : Fin 2 → Fin 2048 → Fin 1024 → EReal) (b : Fin 2) (h : Fin 16) (s : Fin 2048) (d : Fin 64) : EReal :=
  core (fun d' => Q b s (col h d')) (fun k d' => K b k (col h d')) (fun k => V b k (col h d))

/-- The whole layer: element (b, s, e) belongs to head e / 64, lane e % 64. -/
def out (q k v : (⟨3, ![2, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal) :
    (⟨3, ![2, 2048, 1024]⟩ : Shape).Idx → EReal := fun i =>
  attend (proj q Wq bq) (proj k Wk bk) (proj v Wv bv) (i 0)
    ⟨(i 2).val / 64, by have h : (i 2).val < 1024 := (i 2).isLt; omega⟩ (i 1)
    ⟨(i 2).val % 64, Nat.mod_lt _ (by decide)⟩

end Cert.Spec

end
-- ==== Proof.AttnBody.lean ====
/-
  The attention kernel's body, read at one output element.

  The body is one pure term over the three loaded blocks (a pair of heads' query rows [1,2,512,64], key rows and value
  rows [1,2,2048,64]): scores  S[p,q,k] = (Σ_d Q[p,q,d] · K[p,k,d]) · (1/8),  the row maximum over k, the exponentials of
  the differences, their row sum, the quotient, the product with V over k, and the two heads' [512,64] results laid side
  by side along the lanes. At output index (0, s, l) — head l / 64 of the pair, lane l % 64 — it is `Cert.Spec.core` of
  that head's query row s, its key rows and column l % 64 of its value rows.
-/
import proofs.«169522_j80668075753671_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«169522_j80668075753671_2_alg».proof.Proof.Spec

noncomputable section

open scoped BigOperators

namespace Cert.KernelIdeal.AttnBody

open Cert.KernelIdeal Cert.KernelIdeal.Gen Idealize.ShloMosaic Idealize.ShloMosaic.ValueIdx

/-! ## The two batched products -/

/-- The dimension numbers of the score product 'pqd,pkd->pqk'. -/
abbrev dotQK : DotDims S2x512x64 S2x2048x64 S2x512x2048 := dot_S2x512x64_S2x2048x64_S2x512x2048_2_2_1_1_0_0
/-- The dimension numbers of the value product 'pqk,pkd->pqd'. -/
abbrev dotPV : DotDims S2x512x2048 S2x2048x64 S2x512x64 := dot_S2x512x2048_S2x2048x64_S2x512x64_2_1_1_2_0_0

theorem lhsQK_0 (i : S2x512x2048.Idx) (c : dotQK.contr.Idx) : (dotQK.lhsIdx i c 0).val = (i 0).val := by
  unfold DotDims.lhsIdx
  rw [dif_pos (show (0 : Fin S2x512x64.rank) ∈ dotQK.lhsBatch from List.mem_singleton.mpr rfl)]
  rfl
theorem lhsQK_1 (i : S2x512x2048.Idx) (c : dotQK.contr.Idx) : (dotQK.lhsIdx i c 1).val = (i 1).val := by
  unfold DotDims.lhsIdx
  rw [dif_neg (show ¬(1 : Fin S2x512x64.rank) ∈ dotQK.lhsBatch from fun h => absurd (List.mem_singleton.mp h) (by decide)),
    dif_pos (show (1 : Fin S2x512x64.rank) ∈ dotQK.lhsNonContracting from List.mem_singleton.mpr rfl)]
  rfl
theorem lhsQK_2 (i : S2x512x2048.Idx) (c : dotQK.contr.Idx) : (dotQK.lhsIdx i c 2).val = (c ⟨0, by decide⟩).val :=
  dotQK.lhsIdx_val_of_single rfl i c
theorem rhsQK_0 (i : S2x512x2048.Idx) (c : dotQK.contr.Idx) : (dotQK.rhsIdx i c 0).val = (i 0).val := by
  unfold DotDims.rhsIdx
  rw [dif_pos (show (0 : Fin S2x2048x64.rank) ∈ dotQK.rhsBatch from List.mem_singleton.mpr rfl)]
  rfl
theorem rhsQK_1 (i : S2x512x2048.Idx) (c : dotQK.contr.Idx) : (dotQK.rhsIdx i c 1).val = (i 2).val := by
  unfold DotDims.rhsIdx
  rw [dif_neg (show ¬(1 : Fin S2x2048x64.rank) ∈ dotQK.rhsBatch from fun h => absurd (List.mem_singleton.mp h) (by decide)),
    dif_pos (show (1 : Fin S2x2048x64.rank) ∈ dotQK.rhsNonContracting from List.mem_singleton.mpr rfl)]
  rfl
theorem rhsQK_2 (i : S2x512x2048.Idx) (c : dotQK.contr.Idx) : (dotQK.rhsIdx i c 2).val = (c ⟨0, by decide⟩).val :=
  dotQK.rhsIdx_val_of_single rfl i c

/-- The score product into the zero accumulator, at (p, q, k): the sum over the 64 lanes of the products of query row
    (p, q) and key row (p, k). -/
theorem scoreProduct_apply (a : FVec Ideal S2x512x64 .bf16) (b : FVec Ideal S2x2048x64 .bf16) (p : Fin 2) (q : Fin 512) (k : Fin 2048) :
    (matmul (F := Ideal) dotQK none a b (constant (F := Ideal) S2x512x2048 .f32 0x00000000#32) (ix3 p q k) : EReal)
      = ∑ d : Fin 64, a (ix3 p q d) * b (ix3 p k d) := by
  refine (Ideal.matmul_constant_zero_apply dotQK none a b (ix3 p q k)).trans ?_
  rw [← Equiv.sum_comp (contrEquiv1 dotQK 64 rfl rfl).symm]
  refine Finset.sum_congr rfl fun d _ => ?_
  have hd := contrEquiv1_symm_val dotQK 64 rfl rfl d
  have el : dotQK.lhsIdx (ix3 p q k) ((contrEquiv1 dotQK 64 rfl rfl).symm d) = ix3 p q d := funext fun x => Fin.ext (by
    match x with
    | ⟨0, _⟩ => exact lhsQK_0 _ _
    | ⟨1, _⟩ => exact lhsQK_1 _ _
    | ⟨2, _⟩ => exact (lhsQK_2 _ _).trans hd)
  have er : dotQK.rhsIdx (ix3 p q k) ((contrEquiv1 dotQK 64 rfl rfl).symm d) = ix3 p k d := funext fun x => Fin.ext (by
    match x with
    | ⟨0, _⟩ => exact rhsQK_0 _ _
    | ⟨1, _⟩ => exact rhsQK_1 _ _
    | ⟨2, _⟩ => exact (rhsQK_2 _ _).trans hd)
  rw [el, er]

theorem lhsPV_0 (i : S2x512x64.Idx) (c : dotPV.contr.Idx) : (dotPV.lhsIdx i c 0).val = (i 0).val := by
  unfold DotDims.lhsIdx
  rw [dif_pos (show (0 : Fin S2x512x2048.rank) ∈ dotPV.lhsBatch from List.mem_singleton.mpr rfl)]
  rfl
theorem lhsPV_1 (i : S2x512x64.Idx) (c : dotPV.contr.Idx) : (dotPV.lhsIdx i c 1).val = (i 1).val := by
  unfold DotDims.lhsIdx
  rw [dif_neg (show ¬(1 : Fin S2x512x2048.rank) ∈ dotPV.lhsBatch from fun h => absurd (List.mem_singleton.mp h) (by decide)),
    dif_pos (show (1 : Fin S2x512x2048.rank) ∈ dotPV.lhsNonContracting from List.mem_singleton.mpr rfl)]
  rfl
theorem lhsPV_2 (i : S2x512x64.Idx) (c : dotPV.contr.Idx) : (dotPV.lhsIdx i c 2).val = (c ⟨0, by decide⟩).val :=
  dotPV.lhsIdx_val_of_single rfl i c
theorem rhsPV_0 (i : S2x512x64.Idx) (c : dotPV.contr.Idx) : (dotPV.rhsIdx i c 0).val = (i 0).val := by
  unfold DotDims.rhsIdx
  rw [dif_pos (show (0 : Fin S2x2048x64.rank) ∈ dotPV.rhsBatch from List.mem_singleton.mpr rfl)]
  rfl
theorem rhsPV_1 (i : S2x512x64.Idx) (c : dotPV.contr.Idx) : (dotPV.rhsIdx i c 1).val = (c ⟨0, by decide⟩).val :=
  dotPV.rhsIdx_val_of_single rfl i c
theorem rhsPV_2 (i : S2x512x64.Idx) (c : dotPV.contr.Idx) : (dotPV.rhsIdx i c 2).val = (i 2).val := by
  unfold DotDims.rhsIdx
  rw [dif_neg (show ¬(2 : Fin S2x2048x64.rank) ∈ dotPV.rhsBatch from fun h => absurd (List.mem_singleton.mp h) (by decide)),
    dif_pos (show (2 : Fin S2x2048x64.rank) ∈ dotPV.rhsNonContracting from List.mem_singleton.mpr rfl)]
  rfl

/-- The value product into the zero accumulator, at (p, q, d): the sum over the 2048 positions of weight (p, q, k) times
    value (p, k, d). -/
theorem valueProduct_apply (w : FVec Ideal S2x512x2048 .bf16) (b : FVec Ideal S2x2048x64 .bf16) (p : Fin 2) (q : Fin 512) (d : Fin 64) :
    (matmul (F := Ideal) dotPV none w b (constant (F := Ideal) S2x512x64 .f32 0x00000000#32) (ix3 p q d) : EReal)
      = ∑ k : Fin 2048, w (ix3 p q k) * b (ix3 p k d) := by
  refine (Ideal.matmul_constant_zero_apply dotPV none w b (ix3 p q d)).trans ?_
  rw [← Equiv.sum_comp (contrEquiv1 dotPV 2048 rfl rfl).symm]
  refine Finset.sum_congr rfl fun k _ => ?_
  have hk := contrEquiv1_symm_val dotPV 2048 rfl rfl k
  have el : dotPV.lhsIdx (ix3 p q d) ((contrEquiv1 dotPV 2048 rfl rfl).symm k) = ix3 p q k := funext fun x => Fin.ext (by
    match x with
    | ⟨0, _⟩ => exact lhsPV_0 _ _
    | ⟨1, _⟩ => exact lhsPV_1 _ _
    | ⟨2, _⟩ => exact (lhsPV_2 _ _).trans hk)
  have er : dotPV.rhsIdx (ix3 p q d) ((contrEquiv1 dotPV 2048 rfl rfl).symm k) = ix3 p k d := funext fun x => Fin.ext (by
    match x with
    | ⟨0, _⟩ => exact rhsPV_0 _ _
    | ⟨1, _⟩ => exact (rhsPV_1 _ _).trans hk
    | ⟨2, _⟩ => exact rhsPV_2 _ _)
  rw [el, er]

/-! ## The row reductions and the keepdims broadcast -/

/-- The inserted index of the reduction over the last axis: (p, q) with k on axis 2 is (p, q, k). -/
theorem lift_eq (p : Fin 2) (q : Fin 512) (k : Fin 2048) :
    reduces_S2x512x2048_S2x512.lift (ix2 p q) k = ix3 p q k :=
  funext fun x => Fin.ext (by
    match x with
    | ⟨0, _⟩ => rfl
    | ⟨1, _⟩ => rfl
    | ⟨2, _⟩ => rfl)

/-- The row maximum from −∞, at (p, q): the fold of `max` over the 2048 positions of row (p, q). -/
theorem rowMax_apply (x : FVec Ideal S2x512x2048 .f32) (p : Fin 2) (q : Fin 512) :
    (multiReduction (F := Ideal) .maximumf [2] S2x512 x 0xFF800000#32 reduces_S2x512x2048_S2x512 (.inl rfl) rfl (ix2 p q) : EReal)
      = Cert.Spec.rowMax fun k => x (ix3 p q k) := by
  refine (Ideal.multiReduction_maximumf_single x 0xFF800000#32 reduces_S2x512x2048_S2x512 (.inl rfl) rfl (ix2 p q)).trans ?_
  have e : (x ∘ reduces_S2x512x2048_S2x512.lift (ix2 p q)) = fun k : Fin 2048 => x (ix3 p q k) :=
    funext fun k => congrArg x (lift_eq p q k)
  rw [e]
  rfl

/-- The row sum from zero, at (p, q): the sum over the 2048 positions of row (p, q). -/
theorem rowSum_apply (x : FVec Ideal S2x512x2048 .f32) (p : Fin 2) (q : Fin 512) :
    (multiReduction (F := Ideal) .add [2] S2x512 x 0x00000000#32 reduces_S2x512x2048_S2x512 (.inl rfl) rfl (ix2 p q) : EReal)
      = ∑ k : Fin 2048, x (ix3 p q k) := by
  refine (Ideal.multiReduction_add_single x 0x00000000#32 reduces_S2x512x2048_S2x512 (.inl rfl) rfl (ix2 p q)).trans ?_
  exact Finset.sum_congr rfl fun k _ => congrArg x (lift_eq p q k)

/-- A [2,512] value viewed [2,512,1] and broadcast along the last axis reads, at (p, q, k), the value at (p, q). -/
theorem keepdims_apply (y : FVec Ideal S2x512 .f32) (p : Fin 2) (q : Fin 512) (k : Fin 2048) :
    (broadcastTo S2x512x2048 (shapeCast S2x512x1 y shapeCasts_S2x512_S2x512x1) broadcasts_S2x512x1_S2x512x2048 (ix3 p q k) : EReal)
      = y (ix2 p q) := by
  refine (broadcastTo_apply _ broadcasts_S2x512x1_S2x512x2048 (ix3 p q k) (ix3 p q (0 : Fin 1)) (fun x => by
    match x with
    | ⟨0, _⟩ => rfl
    | ⟨1, _⟩ => rfl
    | ⟨2, _⟩ => rfl)).trans ?_
  refine shapeCast_apply y shapeCasts_S2x512_S2x512x1 (ix3 p q (0 : Fin 1)) (ix2 p q) ?_
  rw [Shape.rowMajor_val_two, Shape.rowMajor_val_three]
  show p.val * 512 + q.val = (p.val * 512 + q.val) * 1 + 0
  omega

/-! ## The softmax weight -/

/-- The weights a row of scores gets: subtract the row maximum, exponentiate, divide by the row sum (the narrowing to
    bf16 is the identity on extended reals). At (p, q, k) this is the softmax weight of position k in row (p, q). -/
theorem weight_apply (x : FVec Ideal S2x512x2048 .f32) (p : Fin 2) (q : Fin 512) (k : Fin 2048) :
    (truncf (F := Ideal) .bf16
        (divf
          (exp (subf x (broadcastTo S2x512x2048 (shapeCast S2x512x1
            (multiReduction (F := Ideal) .maximumf [2] S2x512 x 0xFF800000#32 reduces_S2x512x2048_S2x512 (.inl rfl) rfl)
            shapeCasts_S2x512_S2x512x1) broadcasts_S2x512x1_S2x512x2048)))
          (broadcastTo S2x512x2048 (shapeCast S2x512x1
            (multiReduction (F := Ideal) .add [2] S2x512
              (exp (subf x (broadcastTo S2x512x2048 (shapeCast S2x512x1
                (multiReduction (F := Ideal) .maximumf [2] S2x512 x 0xFF800000#32 reduces_S2x512x2048_S2x512 (.inl rfl) rfl)
                shapeCasts_S2x512_S2x512x1) broadcasts_S2x512x1_S2x512x2048)))
              0x00000000#32 reduces_S2x512x2048_S2x512 (.inl rfl) rfl)
            shapeCasts_S2x512_S2x512x1) broadcasts_S2x512x1_S2x512x2048))
        bitsLt_bf16_f32 (ix3 p q k) : EReal)
      = Cert.Spec.weight (fun k' => x (ix3 p q k')) k := by
  -- the exponential of the shifted score, at any position of row (p, q)
  have hexp : ∀ k' : Fin 2048,
      (exp (subf x (broadcastTo S2x512x2048 (shapeCast S2x512x1
            (multiReduction (F := Ideal) .maximumf [2] S2x512 x 0xFF800000#32 reduces_S2x512x2048_S2x512 (.inl rfl) rfl)
            shapeCasts_S2x512_S2x512x1) broadcasts_S2x512x1_S2x512x2048)) (ix3 p q k') : EReal)
        = Ideal.exp (x (ix3 p q k') - Cert.Spec.rowMax fun k'' => x (ix3 p q k'')) := fun k' =>
    congrArg (fun m : EReal => Ideal.exp (x (ix3 p q k') - m)) ((keepdims_apply _ p q k').trans (rowMax_apply x p q))
  unfold Cert.Spec.weight
  refine congrArg₂ Ideal.div (hexp k) ?_
  refine (keepdims_apply _ p q k).trans ?_
  refine (rowSum_apply _ p q).trans ?_
  exact Finset.sum_congr rfl fun k' _ => hexp k'

/-! ## The loaded blocks without their leading unit axis -/

/-- The query block viewed [2,512,64] reads (0, p, q, d) at (p, q, d). -/
theorem dropUnitQ_apply (v : Vec Ideal S1x2x512x64 .bf16) (p : Fin 2) (q : Fin 512) (d : Fin 64) :
    (shapeCast S2x512x64 v shapeCasts_S1x2x512x64_S2x512x64 (ix3 p q d) : EReal) = v (ix4 (0 : Fin 1) p q d) := by
  refine shapeCast_apply v shapeCasts_S1x2x512x64_S2x512x64 (ix3 p q d) (ix4 (0 : Fin 1) p q d) ?_
  rw [Shape.rowMajor_val_four, Shape.rowMajor_val_three]
  show (((0 : Nat) * 2 + p.val) * 512 + q.val) * 64 + d.val = (p.val * 512 + q.val) * 64 + d.val
  omega

/-- A key or value block viewed [2,2048,64] reads (0, p, k, d) at (p, k, d). -/
theorem dropUnitKV_apply (v : Vec Ideal S1x2x2048x64 .bf16) (p : Fin 2) (k : Fin 2048) (d : Fin 64) :
    (shapeCast S2x2048x64 v shapeCasts_S1x2x2048x64_S2x2048x64 (ix3 p k d) : EReal) = v (ix4 (0 : Fin 1) p k d) := by
  refine shapeCast_apply v shapeCasts_S1x2x2048x64_S2x2048x64 (ix3 p k d) (ix4 (0 : Fin 1) p k d) ?_
  rw [Shape.rowMajor_val_four, Shape.rowMajor_val_three]
  show (((0 : Nat) * 2 + p.val) * 2048 + k.val) * 64 + d.val = (p.val * 2048 + k.val) * 64 + d.val
  omega

/-! ## The two heads side by side -/

/-- The pair's [2,512,64] result stored as [1,512,128]: head 0's 64 lanes, then head 1's. At (0, s, l) the stored value
    is the result at head l / 64, row s, lane l % 64. -/
theorem sideBySide_apply (y : FVec Ideal S2x512x64 .f32) (s : Fin 512) (l : Fin 128) :
    (shapeCast S1x512x128
        (concatenate S512x128 1
          [⟨S512x64, shapeCast S512x64 (extractStridedSlice S1x512x64 ![0, 0, 0] y slices_S2x512x64_o0_0_0_S1x512x64) shapeCasts_S1x512x64_S512x64⟩,
           ⟨S512x64, shapeCast S512x64 (extractStridedSlice S1x512x64 ![1, 0, 0] y slices_S2x512x64_o1_0_0_S1x512x64) shapeCasts_S1x512x64_S512x64⟩]
          concatenates_S512x64_S512x64_S512x128_d1)
        shapeCasts_S512x128_S1x512x128 (ix3 (0 : Fin 1) s l) : EReal)
      = y (ix3 (⟨l.val / 64, by omega⟩ : Fin 2) s (⟨l.val % 64, Nat.mod_lt _ (by decide)⟩ : Fin 64)) := by
  refine (shapeCast_apply _ shapeCasts_S512x128_S1x512x128 (ix3 (0 : Fin 1) s l) (ix2 s l) ?_).trans ?_
  · rw [Shape.rowMajor_val_two, Shape.rowMajor_val_three]
    show s.val * 128 + l.val = ((0 : Nat) * 512 + s.val) * 128 + l.val
    omega
  by_cases hl : l.val < 64
  · -- a lane of the first head
    refine (concatenate_pair_apply_left _ _ _ concatenates_S512x64_S512x64_S512x128_d1 (ix2 s l) rfl
      (ix2 s (⟨l.val, hl⟩ : Fin 64)) (fun b => by
        match b with
        | ⟨0, _⟩ => rfl
        | ⟨1, _⟩ => rfl)).trans ?_
    refine (shapeCast_apply _ shapeCasts_S1x512x64_S512x64 (ix2 s (⟨l.val, hl⟩ : Fin 64))
      (ix3 (0 : Fin 1) s (⟨l.val, hl⟩ : Fin 64)) ?_).trans ?_
    · rw [Shape.rowMajor_val_two, Shape.rowMajor_val_three]
      show ((0 : Nat) * 512 + s.val) * 64 + l.val = s.val * 64 + l.val
      omega
    refine (extractStridedSlice_apply ![0, 0, 0] y slices_S2x512x64_o0_0_0_S1x512x64
      (ix3 (0 : Fin 1) s (⟨l.val, hl⟩ : Fin 64)) (ix3 (0 : Fin 2) s (⟨l.val, hl⟩ : Fin 64)) (fun a => by
        match a with
        | ⟨0, _⟩ => rfl
        | ⟨1, _⟩ => show s.val = 0 + s.val; omega
        | ⟨2, _⟩ => show l.val = 0 + l.val; omega)).trans ?_
    refine congrArg y (funext fun a => Fin.ext ?_)
    match a with
    | ⟨0, _⟩ => show 0 = l.val / 64; omega
    | ⟨1, _⟩ => rfl
    | ⟨2, _⟩ => show l.val = l.val % 64; omega
  · -- a lane of the second head
    have hl' : l.val - 64 < 64 := by omega
    refine (concatenate_pair_apply_right _ _ _ concatenates_S512x64_S512x64_S512x128_d1 (ix2 s l) rfl rfl
      (ix2 s (⟨l.val - 64, hl'⟩ : Fin 64)) (fun b hb => by
        match b with
        | ⟨0, _⟩ => rfl
        | ⟨1, _⟩ => exact absurd rfl hb) (by show (l.val - 64) + 64 = l.val; omega)).trans ?_
    refine (shapeCast_apply _ shapeCasts_S1x512x64_S512x64 (ix2 s (⟨l.val - 64, hl'⟩ : Fin 64))
      (ix3 (0 : Fin 1) s (⟨l.val - 64, hl'⟩ : Fin 64)) ?_).trans ?_
    · rw [Shape.rowMajor_val_two, Shape.rowMajor_val_three]
      show ((0 : Nat) * 512 + s.val) * 64 + (l.val - 64) = s.val * 64 + (l.val - 64)
      omega
    refine (extractStridedSlice_apply ![1, 0, 0] y slices_S2x512x64_o1_0_0_S1x512x64
      (ix3 (0 : Fin 1) s (⟨l.val - 64, hl'⟩ : Fin 64)) (ix3 (1 : Fin 2) s (⟨l.val - 64, hl'⟩ : Fin 64)) (fun a => by
        match a with
        | ⟨0, _⟩ => rfl
        | ⟨1, _⟩ => show s.val = 0 + s.val; omega
        | ⟨2, _⟩ => show l.val - 64 = 0 + (l.val - 64); omega)).trans ?_
    refine congrArg y (funext fun a => Fin.ext ?_)
    match a with
    | ⟨0, _⟩ => show 1 = l.val / 64; omega
    | ⟨1, _⟩ => rfl
    | ⟨2, _⟩ => show l.val - 64 = l.val % 64; omega

/-! ## The body at an output element -/

/-- The attention body at output index (0, s, l): head l / 64 of the pair, lane l % 64 — the softmax over the 2048
    positions of that head's scaled scores of query row s, summed against column l % 64 of its value rows. -/
theorem pay_apply (v0 : Vec Ideal S1x2x512x64 .bf16) (v2 v4 : Vec Ideal S1x2x2048x64 .bf16) (s : Fin 512) (l : Fin 128) :
    (k3_pay1 (F := Ideal) v0 v2 v4 (ix3 (0 : Fin 1) s l) : EReal)
      = Cert.Spec.core (fun d' => v0 (ix4 (0 : Fin 1) (⟨l.val / 64, by omega⟩ : Fin 2) s d'))
          (fun k d' => v2 (ix4 (0 : Fin 1) (⟨l.val / 64, by omega⟩ : Fin 2) k d'))
          (fun k => v4 (ix4 (0 : Fin 1) (⟨l.val / 64, by omega⟩ : Fin 2) k (⟨l.val % 64, Nat.mod_lt _ (by decide)⟩ : Fin 64))) := by
  unfold k3_pay1
  refine (sideBySide_apply _ s l).trans ?_
  refine (valueProduct_apply _ _ _ s _).trans ?_
  unfold Cert.Spec.core
  refine Finset.sum_congr rfl fun k _ => ?_
  refine congrArg₂ (fun a b : EReal => a * b) ?_ (dropUnitKV_apply v4 _ k _)
  refine (weight_apply _ _ s k).trans ?_
  refine congrArg (fun S : Fin 2048 → EReal => Cert.Spec.weight S k) (funext fun k' => ?_)
  refine congrArg (fun a : EReal => a * Cert.Spec.scale) ?_
  refine (scoreProduct_apply _ _ _ s k').trans ?_
  exact Finset.sum_congr rfl fun d' _ => congrArg₂ (fun a b : EReal => a * b) (dropUnitQ_apply v0 _ s d') (dropUnitKV_apply v2 _ k' d')

end Cert.KernelIdeal.AttnBody

end
-- ==== Proof.AttnRegion.lean ====
/-
  The attention region: its output array after the region, as one function of the three arrays it finds.
  The grid is 16 head pairs × 4 query tiles. Point (g, t) reads query rows t·512 … t·512+511 of pair g and all 2048
  key and value rows of pair g, and writes rows t·512 … of the [16, 2048, 128] output: lane l of a row belongs to head
  l / 64 of the pair, lane position l % 64. Element (g, s, l) is the attention `core` of query row (g, l/64, s), the key
  rows (g, l/64, ·) and the value column (g, l/64, ·, l%64); the 64 blocks tile the array.
-/
import proofs.«169522_j80668075753671_2_alg».proof.Proof.Gen.KernelIdeal.Frame
import proofs.«169522_j80668075753671_2_alg».proof.Proof.AttnBody

set_option maxRecDepth 16384

noncomputable section

open scoped BigOperators

namespace Cert.KernelIdeal.AttnRegion

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Which head of its pair a lane belongs to, and the lane's position inside the head. -/
def headOf (l : Fin 128) : Fin 2 := ⟨l.val / 64, by omega⟩
def laneOf (l : Fin 128) : Fin 64 := ⟨l.val % 64, Nat.mod_lt _ (by decide)⟩

/-- Element (g, s, l) of the attention output in pair layout. -/
def G (Qp Kp Vp : S16x2x2048x64.Idx → EReal) : S16x2048x128.Idx → EReal := fun i =>
  Cert.Spec.core (fun d' => Qp (ix4 (n0 := 16) (i 0) (headOf (i 2)) (n2 := 2048) (i 1) d'))
    (fun k d' => Kp (ix4 (n0 := 16) (i 0) (headOf (i 2)) k d'))
    (fun k => Vp (ix4 (n0 := 16) (i 0) (headOf (i 2)) k (laneOf (i 2))))

/-- The index maps over the grid: the query tile moves with the output tile, keys and values follow the pair only. -/
theorem idx_facts : ∀ t : Fin cfg3.N,
    win3_0.index t (0 : Fin 4) = win3_3.index t (0 : Fin 3) ∧ win3_0.index t (1 : Fin 4) = 0
    ∧ win3_0.index t (2 : Fin 4) = win3_3.index t (1 : Fin 3) ∧ win3_0.index t (3 : Fin 4) = 0
    ∧ win3_1.index t (0 : Fin 4) = win3_3.index t (0 : Fin 3) ∧ win3_1.index t (1 : Fin 4) = 0
    ∧ win3_1.index t (2 : Fin 4) = 0 ∧ win3_1.index t (3 : Fin 4) = 0
    ∧ win3_2.index t (0 : Fin 4) = win3_3.index t (0 : Fin 3) ∧ win3_2.index t (1 : Fin 4) = 0
    ∧ win3_2.index t (2 : Fin 4) = 0 ∧ win3_2.index t (3 : Fin 4) = 0
    ∧ win3_3.index t (0 : Fin 3) ≤ 15 ∧ win3_3.index t (1 : Fin 3) ≤ 3 ∧ win3_3.index t (2 : Fin 3) = 0 :=
  (by decide +kernel : ∀ t : Fin grid3.N, _)

/-- Every (pair, query tile) block of the output is some point's. -/
theorem idx_onto : ∀ (q0 : Fin 16) (q1 : Fin 4), ∃ t : Fin cfg3.N, win3_3.index t = ![q0.val, q1.val, 0] :=
  (by decide +kernel : ∀ (q0 : Fin 16) (q1 : Fin 4), ∃ t : Fin grid3.N, win3_3.index t = ![q0.val, q1.val, 0])

/-- What point `t` writes back is block `t` of `G` of the arrays the region finds. -/
theorem flushed_eq (c : Dev nD) (t : Fin cfg3.N) :
    (dat3 V c).flushed 3 t = ((cfg3.win 3).blk t).view.read (Elt Ideal) (G (V c main_v15) (V c main_v19) (V c main_v23)) := by
  show (cfg3.win 3).cut (grid3.coords t) ((dat3 V c).after 3 t) = _
  rw [after3_3]
  unfold out3_3
  rw [View.canon_unit_zero hz3]
  simp only [View.ld_unit_zero (S := S1x2x512x64) hz4, View.ld_unit_zero (S := S1x2x2048x64) hz4]
  obtain ⟨a0, a1, a2, a3, b0, b1, b2, b3, c0, c1, c2, c3, o0, o1, o2⟩ := idx_facts t
  funext j
  obtain ⟨u, s, l, rfl⟩ : ∃ (u : Fin 1) (s : Fin 512) (l : Fin 128), j = ix3 u s l := ⟨j 0, j 1, j 2, eq_ix3 j⟩
  obtain rfl : u = 0 := Subsingleton.elim _ _
  show k3_pay1 (F := Ideal) (iblk3 V c 0 t) (iblk3 V c 1 t) (iblk3 V c 2 t) (ix3 (0 : Fin 1) s l)
    = G (V c main_v15) (V c main_v19) (V c main_v23) (((cfg3.win 3).blk t).view.emb (ix3 (0 : Fin 1) s l))
  refine (AttnBody.pay_apply (iblk3 V c 0 t) (iblk3 V c 1 t) (iblk3 V c 2 t) s l).trans ?_
  have hl : l.val < 128 := l.isLt
  have hs : s.val < 512 := s.isLt
  unfold G
  refine congr (congr (congrArg Cert.Spec.core (funext fun d' => ?_)) (funext fun k => funext fun d' => ?_)) (funext fun k => ?_)
  · show V c main_v15 (((cfg3.win 0).blk t).view.emb (ix4 (0 : Fin 1) (⟨l.val / 64, by omega⟩ : Fin 2) s d')) = V c main_v15 _
    refine congrArg (V c main_v15) (funext fun a => Fin.ext ?_)
    match a with
    | ⟨0, _⟩ => show win3_0.index t (0 : Fin 4) * 1 + 1 * 0 = win3_3.index t (0 : Fin 3) * 1 + 1 * 0; omega
    | ⟨1, _⟩ => show win3_0.index t (1 : Fin 4) * 2 + 1 * (l.val / 64) = (win3_3.index t (2 : Fin 3) * 128 + 1 * l.val) / 64; omega
    | ⟨2, _⟩ => show win3_0.index t (2 : Fin 4) * 512 + 1 * s.val = win3_3.index t (1 : Fin 3) * 512 + 1 * s.val; omega
    | ⟨3, _⟩ => show win3_0.index t (3 : Fin 4) * 64 + 1 * d'.val = d'.val; omega
  · show V c main_v19 (((cfg3.win 1).blk t).view.emb (ix4 (0 : Fin 1) (⟨l.val / 64, by omega⟩ : Fin 2) k d')) = V c main_v19 _
    refine congrArg (V c main_v19) (funext fun a => Fin.ext ?_)
    match a with
    | ⟨0, _⟩ => show win3_1.index t (0 : Fin 4) * 1 + 1 * 0 = win3_3.index t (0 : Fin 3) * 1 + 1 * 0; omega
    | ⟨1, _⟩ => show win3_1.index t (1 : Fin 4) * 2 + 1 * (l.val / 64) = (win3_3.index t (2 : Fin 3) * 128 + 1 * l.val) / 64; omega
    | ⟨2, _⟩ => show win3_1.index t (2 : Fin 4) * 2048 + 1 * k.val = k.val; omega
    | ⟨3, _⟩ => show win3_1.index t (3 : Fin 4) * 64 + 1 * d'.val = d'.val; omega
  · show V c main_v23 (((cfg3.win 2).blk t).view.emb (ix4 (0 : Fin 1) (⟨l.val / 64, by omega⟩ : Fin 2) k (⟨l.val % 64, Nat.mod_lt _ (by decide)⟩ : Fin 64))) = V c main_v23 _
    refine congrArg (V c main_v23) (funext fun a => Fin.ext ?_)
    match a with
    | ⟨0, _⟩ => show win3_2.index t (0 : Fin 4) * 1 + 1 * 0 = win3_3.index t (0 : Fin 3) * 1 + 1 * 0; omega
    | ⟨1, _⟩ => show win3_2.index t (1 : Fin 4) * 2 + 1 * (l.val / 64) = (win3_3.index t (2 : Fin 3) * 128 + 1 * l.val) / 64; omega
    | ⟨2, _⟩ => show win3_2.index t (2 : Fin 4) * 2048 + 1 * k.val = k.val; omega
    | ⟨3, _⟩ => show win3_2.index t (3 : Fin 4) * 64 + 1 * (l.val % 64) = (win3_3.index t (2 : Fin 3) * 128 + 1 * l.val) % 64; omega

/-- An index of the output array lies in point `t`'s block iff each coordinate is in the block's range. -/
theorem mem_blk (t : Fin cfg3.N) (i : S16x2048x128.Idx) :
    i ∈ ((cfg3.win 3).blk t).view.set ↔ ∀ a : Fin 3, win3_3.index t a * S1x512x128.size a ≤ (i a).val ∧ (i a).val < win3_3.index t a * S1x512x128.size a + S1x512x128.size a := by
  show i ∈ ((View.whole main_v24).slice (win3_3.rect t)).set ↔ _
  rw [View.set_slice_whole, Rect.mem_set_unit]
  exact Iff.rfl

/-- The 64 blocks tile the output: (g, s, l) is in the block of pair g, query tile s / 512. -/
theorem cover (i : S16x2048x128.Idx) : ∃ t : Fin cfg3.N, (cfg3.win 3).flush t = true ∧ i ∈ ((cfg3.win 3).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win3_3.index t (0 : Fin 3) = (i 0).val := congrFun ht 0
  have q1 : win3_3.index t (1 : Fin 3) = (i 1).val / 512 := congrFun ht 1
  have q2 : win3_3.index t (2 : Fin 3) = 0 := congrFun ht 2
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 128 ≤ (i 2).val ∧ (i 2).val < win3_3.index t (2 : Fin 3) * 128 + 128; omega

/-- The output array after the region. -/
theorem final (c : Dev nD) : (dat3 V c).arrAt 3 cfg3.N = G (V c main_v15) (V c main_v19) (V c main_v23) :=
  (dat3 V c).arrAt_eq_of_cover 3 (G (V c main_v15) (V c main_v19) (V c main_v23)) (fun t _ => flushed_eq V c t) cover

end Cert.KernelIdeal.AttnRegion

end
-- ==== Proof.KernelFold.lean ====
/-
  The idealized kernel's result buffer at the last boundary, walked back to the launch memory.
  @main is five stretches of host operations around four regions. Each stretch only re-lays arrays out (reshapes and
  transposes), and each region replaces its output array by a function of its three input arrays, so the result is
  a composition: the three projections of the flattened inputs, re-laid into head pairs, through the attention region,
  re-laid back. A buffer a stretch does not write, and an array a region does not own, keep their contents.
-/
import proofs.«169522_j80668075753671_2_alg».proof.Proof.Gen.KernelIdeal.Frame
import proofs.«169522_j80668075753671_2_alg».proof.Proof.Layout
import proofs.«169522_j80668075753671_2_alg».proof.Proof.Proj0
import proofs.«169522_j80668075753671_2_alg».proof.Proof.Proj1
import proofs.«169522_j80668075753671_2_alg».proof.Proof.Proj2
import proofs.«169522_j80668075753671_2_alg».proof.Proof.AttnRegion
import Idealize.ShloMosaic.Lib.StableHlo.Run

set_option maxRecDepth 16384

noncomputable section

namespace Cert.KernelIdeal.Fold

open Cert.KernelIdeal Cert.KernelIdeal.Gen Cert.KernelIdeal.Layout
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The launch contents of a buffer. -/
abbrev arg (c : Dev nD) (b : Ref sig .tc) : Buf (Elt Ideal) ((c : Thread nD τ).loc b) := m ((c : Thread nD τ).loc b)

/-! ## Region 0: the query projection -/

theorem V1_v0 (c : Dev nD) : V1 m ρ c main_v0 = flat (arg m c main_arg0) := by
  show StableHlo.after hostOps0 (W0 m ρ c) (Proc.devRef .tc main_v0) = _
  after_results; rfl
theorem V1_arg3 (c : Dev nD) : V1 m ρ c main_arg3 = arg m c main_arg3 := by
  show StableHlo.after hostOps0 (W0 m ρ c) (Proc.devRef .tc main_arg3) = _
  after_results
theorem V1_v1 (c : Dev nD) : V1 m ρ c main_v1 = row (arg m c main_arg4) := by
  show StableHlo.after hostOps0 (W0 m ρ c) (Proc.devRef .tc main_v1) = _
  after_results; rfl

/-- The query projection: region 0's output array. -/
abbrev Yq (c : Dev nD) : S4096x1024.Idx → EReal :=
  Proj0.G (flat (arg m c main_arg0)) (arg m c main_arg3) (row (arg m c main_arg4))

theorem W2_v2 (c : Dev nD) : W2 m ρ c (Proc.devRef .tc main_v2) = Yq m c := by
  refine (W2_arr m ρ c 3).trans ((Proj0.final (V1 m ρ) c).trans ?_)
  rw [V1_v0, V1_arg3, V1_v1]

/-- An argument no earlier stretch or region writes, at region 0's exit. -/
theorem W2_of_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = arg m c b :=
  (W2_of_ne m ρ c b hb).trans h0

theorem W2_arg1 (c : Dev nD) : W2 m ρ c (Proc.devRef .tc main_arg1) = arg m c main_arg1 :=
  W2_of_arg m ρ c main_arg1 (by decide) (by after_results)
theorem W2_arg5 (c : Dev nD) : W2 m ρ c (Proc.devRef .tc main_arg5) = arg m c main_arg5 :=
  W2_of_arg m ρ c main_arg5 (by decide) (by after_results)
theorem W2_arg6 (c : Dev nD) : W2 m ρ c (Proc.devRef .tc main_arg6) = arg m c main_arg6 :=
  W2_of_arg m ρ c main_arg6 (by decide) (by after_results)
theorem W2_arg2 (c : Dev nD) : W2 m ρ c (Proc.devRef .tc main_arg2) = arg m c main_arg2 :=
  W2_of_arg m ρ c main_arg2 (by decide) (by after_results)
theorem W2_arg7 (c : Dev nD) : W2 m ρ c (Proc.devRef .tc main_arg7) = arg m c main_arg7 :=
  W2_of_arg m ρ c main_arg7 (by decide) (by after_results)
theorem W2_arg8 (c : Dev nD) : W2 m ρ c (Proc.devRef .tc main_arg8) = arg m c main_arg8 :=
  W2_of_arg m ρ c main_arg8 (by decide) (by after_results)

/-! ## Region 1: the key projection -/

theorem V3_v3 (c : Dev nD) : V3 m ρ c main_v3 = unflat (Yq m c) := by
  show StableHlo.after hostOps1 (W2 m ρ c) (Proc.devRef .tc main_v3) = _
  after_results; rw [W2_v2]; rfl
theorem V3_v4 (c : Dev nD) : V3 m ρ c main_v4 = flat (arg m c main_arg1) := by
  show StableHlo.after hostOps1 (W2 m ρ c) (Proc.devRef .tc main_v4) = _
  after_results; rw [W2_arg1]; rfl
theorem V3_arg5 (c : Dev nD) : V3 m ρ c main_arg5 = arg m c main_arg5 := by
  show StableHlo.after hostOps1 (W2 m ρ c) (Proc.devRef .tc main_arg5) = _
  after_results; exact W2_arg5 m ρ c
theorem V3_v5 (c : Dev nD) : V3 m ρ c main_v5 = row (arg m c main_arg6) := by
  show StableHlo.after hostOps1 (W2 m ρ c) (Proc.devRef .tc main_v5) = _
  after_results; rw [W2_arg6]; rfl
theorem V3_arg2 (c : Dev nD) : V3 m ρ c main_arg2 = arg m c main_arg2 := by
  show StableHlo.after hostOps1 (W2 m ρ c) (Proc.devRef .tc main_arg2) = _
  after_results; exact W2_arg2 m ρ c
theorem V3_arg7 (c : Dev nD) : V3 m ρ c main_arg7 = arg m c main_arg7 := by
  show StableHlo.after hostOps1 (W2 m ρ c) (Proc.devRef .tc main_arg7) = _
  after_results; exact W2_arg7 m ρ c
theorem V3_arg8 (c : Dev nD) : V3 m ρ c main_arg8 = arg m c main_arg8 := by
  show StableHlo.after hostOps1 (W2 m ρ c) (Proc.devRef .tc main_arg8) = _
  after_results; exact W2_arg8 m ρ c

/-- The key projection: region 1's output array. -/
abbrev Yk (c : Dev nD) : S4096x1024.Idx → EReal :=
  Proj1.G (flat (arg m c main_arg1)) (arg m c main_arg5) (row (arg m c main_arg6))

theorem W4_v6 (c : Dev nD) : W4 m ρ c (Proc.devRef .tc main_v6) = Yk m c := by
  refine (W4_arr m ρ c 3).trans ((Proj1.final (V3 m ρ) c).trans ?_)
  rw [V3_v4, V3_arg5, V3_v5]

theorem W4_v3 (c : Dev nD) : W4 m ρ c (Proc.devRef .tc main_v3) = unflat (Yq m c) :=
  (W4_of_ne m ρ c main_v3 (by decide)).trans (V3_v3 m ρ c)
theorem W4_arg2 (c : Dev nD) : W4 m ρ c (Proc.devRef .tc main_arg2) = arg m c main_arg2 :=
  (W4_of_ne m ρ c main_arg2 (by decide)).trans (V3_arg2 m ρ c)
theorem W4_arg7 (c : Dev nD) : W4 m ρ c (Proc.devRef .tc main_arg7) = arg m c main_arg7 :=
  (W4_of_ne m ρ c main_arg7 (by decide)).trans (V3_arg7 m ρ c)
theorem W4_arg8 (c : Dev nD) : W4 m ρ c (Proc.devRef .tc main_arg8) = arg m c main_arg8 :=
  (W4_of_ne m ρ c main_arg8 (by decide)).trans (V3_arg8 m ρ c)

/-! ## Region 2: the value projection -/

theorem V5_v7 (c : Dev nD) : V5 m ρ c main_v7 = unflat (Yk m c) := by
  show StableHlo.after hostOps2 (W4 m ρ c) (Proc.devRef .tc main_v7) = _
  after_results; rw [W4_v6]; rfl
theorem V5_v3 (c : Dev nD) : V5 m ρ c main_v3 = unflat (Yq m c) := by
  show StableHlo.after hostOps2 (W4 m ρ c) (Proc.devRef .tc main_v3) = _
  after_results; exact W4_v3 m ρ c
theorem V5_v8 (c : Dev nD) : V5 m ρ c main_v8 = flat (arg m c main_arg2) := by
  show StableHlo.after hostOps2 (W4 m ρ c) (Proc.devRef .tc main_v8) = _
  after_results; rw [W4_arg2]; rfl
theorem V5_arg7 (c : Dev nD) : V5 m ρ c main_arg7 = arg m c main_arg7 := by
  show StableHlo.after hostOps2 (W4 m ρ c) (Proc.devRef .tc main_arg7) = _
  after_results; exact W4_arg7 m ρ c
theorem V5_v9 (c : Dev nD) : V5 m ρ c main_v9 = row (arg m c main_arg8) := by
  show StableHlo.after hostOps2 (W4 m ρ c) (Proc.devRef .tc main_v9) = _
  after_results; rw [W4_arg8]; rfl

/-- The value projection: region 2's output array. -/
abbrev Yv (c : Dev nD) : S4096x1024.Idx → EReal :=
  Proj2.G (flat (arg m c main_arg2)) (arg m c main_arg7) (row (arg m c main_arg8))

theorem W6_v10 (c : Dev nD) : W6 m ρ c (Proc.devRef .tc main_v10) = Yv m c := by
  refine (W6_arr m ρ c 3).trans ((Proj2.final (V5 m ρ) c).trans ?_)
  rw [V5_v8, V5_arg7, V5_v9]
theorem W6_v3 (c : Dev nD) : W6 m ρ c (Proc.devRef .tc main_v3) = unflat (Yq m c) :=
  (W6_of_ne m ρ c main_v3 (by decide)).trans (V5_v3 m ρ c)
theorem W6_v7 (c : Dev nD) : W6 m ρ c (Proc.devRef .tc main_v7) = unflat (Yk m c) :=
  (W6_of_ne m ρ c main_v7 (by decide)).trans (V5_v7 m ρ c)

/-! ## The stretch before the attention region: the three projections re-laid into head pairs -/

theorem V7_v15 (c : Dev nD) : V7 m ρ c main_v15 = pairs (unflat (Yq m c)) := by
  show StableHlo.after hostOps3 (W6 m ρ c) (Proc.devRef .tc main_v15) = _
  after_results; rw [W6_v3]; rfl
theorem V7_v19 (c : Dev nD) : V7 m ρ c main_v19 = pairs (unflat (Yk m c)) := by
  show StableHlo.after hostOps3 (W6 m ρ c) (Proc.devRef .tc main_v19) = _
  after_results; rw [W6_v7]; rfl
theorem V7_v23 (c : Dev nD) : V7 m ρ c main_v23 = pairs (unflat (Yv m c)) := by
  show StableHlo.after hostOps3 (W6 m ρ c) (Proc.devRef .tc main_v23) = _
  after_results; rw [W6_v10]; rfl

/-! ## Region 3: attention over the head pairs, and the stretch after it -/

/-- The attention region's output array. -/
abbrev Z (c : Dev nD) : S16x2048x128.Idx → EReal :=
  AttnRegion.G (pairs (unflat (Yq m c))) (pairs (unflat (Yk m c))) (pairs (unflat (Yv m c)))

theorem W8_v24 (c : Dev nD) : W8 m ρ c (Proc.devRef .tc main_v24) = Z m c := by
  refine (W8_arr m ρ c 3).trans ((AttnRegion.final (V7 m ρ) c).trans ?_)
  rw [V7_v15, V7_v19, V7_v23]

/-- The result buffer at the last boundary: the attention output re-laid back to [2, 2048, 1024]. -/
theorem W9_v28 (c : Dev nD) : W9 m ρ c (Proc.devRef .tc main_v28) = unpairs (Z m c) := by
  show StableHlo.after hostOps4 (W8 m ρ c) (Proc.devRef .tc main_v28) = _
  after_results; rw [W8_v24]; rfl

end Cert.KernelIdeal.Fold

end
-- ==== Proof.KernelSpec.lean ====
/-
  The kernel's composed function is the specification.
  Each projection region computes, on the flattened input, the linear projection of the specification; the pair
  layout puts head (g % 8)·2 + r of batch g / 8 at pair g, member r; the attention region computes `core` per pair
  member; and the layout back sends column e of the result to pair (e / 64) / 2, lane ((e / 64) % 2)·64 + e % 64.
  Composed, element (b, s, e) is `core` of row s of head e / 64 of the projected queries, that head's key rows and
  column e of the projected values: the specification's `out`.
-/
import proofs.«169522_j80668075753671_2_alg».proof.Proof.Spec
import proofs.«169522_j80668075753671_2_alg».proof.Proof.Layout
import proofs.«169522_j80668075753671_2_alg».proof.Proof.Proj0
import proofs.«169522_j80668075753671_2_alg».proof.Proof.Proj1
import proofs.«169522_j80668075753671_2_alg».proof.Proof.Proj2
import proofs.«169522_j80668075753671_2_alg».proof.Proof.AttnRegion

noncomputable section

open scoped BigOperators

namespace Cert.KernelIdeal.KernelSpec

open Cert.KernelIdeal Cert.KernelIdeal.Layout Idealize.ShloMosaic Idealize.ShloMosaic.ValueIdx

/-- The specification's projection as an array over [2, 2048, 1024]. -/
abbrev projArr (x : S2x2048x1024.Idx → EReal) (W : S1024x1024.Idx → EReal) (β : S1024.Idx → EReal) : S2x2048x1024.Idx → EReal :=
  fun i => Cert.Spec.proj x W β (i 0) (i 1) (i 2)

/-- Region 0's output, viewed [2, 2048, 1024] again, is the specification's projection of the unflattened input. -/
theorem proj0_eq (x : S2x2048x1024.Idx → EReal) (W : S1024x1024.Idx → EReal) (β : S1024.Idx → EReal) :
    unflat (Proj0.G (flat x) W (row β)) = projArr x W β := by
  funext i
  obtain ⟨b, s, e, rfl⟩ : ∃ (b : Fin 2) (s : Fin 2048) (e : Fin 1024), i = ix3 b s e := ⟨i 0, i 1, i 2, eq_ix3 i⟩
  have hb : b.val < 2 := b.isLt
  have hs : s.val < 2048 := s.isLt
  refine (unflat_apply _ b s e).trans ?_
  unfold Proj0.G
  show (∑ k : Fin 1024, flat x (ix2 (⟨b.val * 2048 + s.val, by omega⟩ : Fin 4096) k) * W (ix2 k e)) + row β (ix2 (0 : Fin 1) e)
    = (∑ k : Fin 1024, x (ix3 b s k) * W (ix2 k e)) + β (ix1 e)
  refine congrArg₂ (· + ·) (Finset.sum_congr rfl fun k _ => congrArg₂ (· * ·) ?_ rfl) (row_apply β e)
  refine (flat_apply x _ k).trans (congrArg x (funext fun a => Fin.ext ?_))
  match a with
  | ⟨0, _⟩ => show (b.val * 2048 + s.val) / 2048 = b.val; omega
  | ⟨1, _⟩ => show (b.val * 2048 + s.val) % 2048 = s.val; omega
  | ⟨2, _⟩ => rfl

/-- Region 1's output, viewed [2, 2048, 1024] again, is the specification's projection of the unflattened input. -/
theorem proj1_eq (x : S2x2048x1024.Idx → EReal) (W : S1024x1024.Idx → EReal) (β : S1024.Idx → EReal) :
    unflat (Proj1.G (flat x) W (row β)) = projArr x W β := by
  funext i
  obtain ⟨b, s, e, rfl⟩ : ∃ (b : Fin 2) (s : Fin 2048) (e : Fin 1024), i = ix3 b s e := ⟨i 0, i 1, i 2, eq_ix3 i⟩
  have hb : b.val < 2 := b.isLt
  have hs : s.val < 2048 := s.isLt
  refine (unflat_apply _ b s e).trans ?_
  unfold Proj1.G
  show (∑ k : Fin 1024, flat x (ix2 (⟨b.val * 2048 + s.val, by omega⟩ : Fin 4096) k) * W (ix2 k e)) + row β (ix2 (0 : Fin 1) e)
    = (∑ k : Fin 1024, x (ix3 b s k) * W (ix2 k e)) + β (ix1 e)
  refine congrArg₂ (· + ·) (Finset.sum_congr rfl fun k _ => congrArg₂ (· * ·) ?_ rfl) (row_apply β e)
  refine (flat_apply x _ k).trans (congrArg x (funext fun a => Fin.ext ?_))
  match a with
  | ⟨0, _⟩ => show (b.val * 2048 + s.val) / 2048 = b.val; omega
  | ⟨1, _⟩ => show (b.val * 2048 + s.val) % 2048 = s.val; omega
  | ⟨2, _⟩ => rfl

/-- Region 2's output, viewed [2, 2048, 1024] again, is the specification's projection of the unflattened input. -/
theorem proj2_eq (x : S2x2048x1024.Idx → EReal) (W : S1024x1024.Idx → EReal) (β : S1024.Idx → EReal) :
    unflat (Proj2.G (flat x) W (row β)) = projArr x W β := by
  funext i
  obtain ⟨b, s, e, rfl⟩ : ∃ (b : Fin 2) (s : Fin 2048) (e : Fin 1024), i = ix3 b s e := ⟨i 0, i 1, i 2, eq_ix3 i⟩
  have hb : b.val < 2 := b.isLt
  have hs : s.val < 2048 := s.isLt
  refine (unflat_apply _ b s e).trans ?_
  unfold Proj2.G
  show (∑ k : Fin 1024, flat x (ix2 (⟨b.val * 2048 + s.val, by omega⟩ : Fin 4096) k) * W (ix2 k e)) + row β (ix2 (0 : Fin 1) e)
    = (∑ k : Fin 1024, x (ix3 b s k) * W (ix2 k e)) + β (ix1 e)
  refine congrArg₂ (· + ·) (Finset.sum_congr rfl fun k _ => congrArg₂ (· * ·) ?_ rfl) (row_apply β e)
  refine (flat_apply x _ k).trans (congrArg x (funext fun a => Fin.ext ?_))
  match a with
  | ⟨0, _⟩ => show (b.val * 2048 + s.val) / 2048 = b.val; omega
  | ⟨1, _⟩ => show (b.val * 2048 + s.val) % 2048 = s.val; omega
  | ⟨2, _⟩ => rfl

/-- The pair layout of a projection, at pair `g`, member `r`: batch `g / 8`, head `(g % 8)·2 + r`. -/
theorem pairs_proj (x : S2x2048x1024.Idx → EReal) (W : S1024x1024.Idx → EReal) (β : S1024.Idx → EReal)
    (g : Fin 16) (r : Fin 2) (s : Fin 2048) (d : Fin 64) :
    pairs (projArr x W β) (ix4 g r s d)
      = Cert.Spec.proj x W β (⟨g.val / 8, by omega⟩ : Fin 2) s (⟨(g.val % 8 * 2 + r.val) * 64 + d.val, by omega⟩ : Fin 1024) :=
  pairs_apply (projArr x W β) g r s d

/-- The kernel's composed function, element by element, is the specification's `out`. -/
theorem kernel_eq (q k v : S2x2048x1024.Idx → EReal) (Wq : S1024x1024.Idx → EReal) (bq : S1024.Idx → EReal)
    (Wk : S1024x1024.Idx → EReal) (bk : S1024.Idx → EReal) (Wv : S1024x1024.Idx → EReal) (bv : S1024.Idx → EReal) :
    unpairs (AttnRegion.G (pairs (unflat (Proj0.G (flat q) Wq (row bq)))) (pairs (unflat (Proj1.G (flat k) Wk (row bk))))
        (pairs (unflat (Proj2.G (flat v) Wv (row bv)))))
      = Cert.Spec.out q k v Wq bq Wk bk Wv bv := by
  rw [proj0_eq, proj1_eq, proj2_eq]
  funext i
  obtain ⟨b, s, e, rfl⟩ : ∃ (b : Fin 2) (s : Fin 2048) (e : Fin 1024), i = ix3 b s e := ⟨i 0, i 1, i 2, eq_ix3 i⟩
  have hb : b.val < 2 := b.isLt
  have hs : s.val < 2048 := s.isLt
  have he : e.val < 1024 := e.isLt
  refine (unpairs_apply _ b s e).trans ?_
  unfold AttnRegion.G Cert.Spec.out Cert.Spec.attend
  refine congr (congr (congrArg Cert.Spec.core (funext fun d' => ?_)) (funext fun k' => funext fun d' => ?_)) (funext fun k' => ?_)
  · refine (pairs_proj q Wq bq _ _ _ d').trans ?_
    refine congr (congr (congrArg (Cert.Spec.proj q Wq bq) (Fin.ext ?_)) rfl) (Fin.ext ?_)
    · show (b.val * 8 + e.val / 64 / 2) / 8 = b.val; omega
    · show ((b.val * 8 + e.val / 64 / 2) % 8 * 2 + (e.val / 64 % 2 * 64 + e.val % 64) / 64) * 64 + d'.val = e.val / 64 * 64 + d'.val; omega
  · refine (pairs_proj k Wk bk _ _ _ d').trans ?_
    refine congr (congr (congrArg (Cert.Spec.proj k Wk bk) (Fin.ext ?_)) rfl) (Fin.ext ?_)
    · show (b.val * 8 + e.val / 64 / 2) / 8 = b.val; omega
    · show ((b.val * 8 + e.val / 64 / 2) % 8 * 2 + (e.val / 64 % 2 * 64 + e.val % 64) / 64) * 64 + d'.val = e.val / 64 * 64 + d'.val; omega
  · refine (pairs_proj v Wv bv _ _ _ _).trans ?_
    refine congr (congr (congrArg (Cert.Spec.proj v Wv bv) (Fin.ext ?_)) rfl) (Fin.ext ?_)
    · show (b.val * 8 + e.val / 64 / 2) / 8 = b.val; omega
    · show ((b.val * 8 + e.val / 64 / 2) % 8 * 2 + (e.val / 64 % 2 * 64 + e.val % 64) / 64) * 64 + (e.val / 64 % 2 * 64 + e.val % 64) % 64 = e.val / 64 * 64 + e.val % 64; omega

end Cert.KernelIdeal.KernelSpec

end
-- ==== Proof.KernelValue.lean ====
/-
  The idealized kernel's run, with its result stated by the specification: every weakly fair execution of @main
  terminates, the result buffer ends at `Cert.Spec.out` of the nine argument arrays as launched, and the arguments
  end unchanged. The result buffer's contents at the last boundary are the composition of the regions' and the host
  stretches' functions, and that composition is the specification.
-/
import proofs.«169522_j80668075753671_2_alg».proof.Proof.KernelRun
import proofs.«169522_j80668075753671_2_alg».proof.Proof.KernelFold
import proofs.«169522_j80668075753671_2_alg».proof.Proof.KernelSpec

noncomputable section

namespace Cert.KernelIdeal.KernelValue

open Cert.KernelIdeal Cert.KernelIdeal.Gen Idealize.ShloMosaic Idealize.ShloMosaic.TcCoe Idealize.SL Idealize.SL.Sem

/-- The result buffer at the last boundary is the specification of the launch contents of the arguments. -/
theorem result_eq (m : (ℓ : Loc nD τ sig) → Buf (Elt Ideal) ℓ) (ρ : Dev nD → PrngReg) (c : Dev nD) :
    W9 m ρ c (Proc.devRef .tc main_v28)
      = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  (Fold.W9_v28 m ρ c).trans (KernelSpec.kernel_eq _ _ _ _ _ _ _ _ _)

/-- The run, re-posted. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28)
        = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (ValueRun.run_W9 (F := Ideal) m ρ)

end Cert.KernelIdeal.KernelValue

end
-- ==== Proof.RefSpec.lean ====
/-
  The reference program computes the specification.
  Read one operation at a time: each projection is a contraction over the input's last axis and the matrix's first,
  plus the bias broadcast along batch and position; the reshape and transpose to heads put column h·64 + d of row s at
  (b, h, s, d); the scores are the contraction over the 64 lanes, times 1/8; the maximum-reduce over the last axis,
  followed by a maximum with −∞, is the row maximum folded from −∞; the exponentials of the differences, their row
  sum and the quotient are the softmax weights; the second contraction is the weighted sum of the values; and the
  transpose and reshape back send (b, s, e) to head e / 64, lane e % 64.
-/
import proofs.«169522_j80668075753671_2_alg».proof.Proof.Gen.ReferenceIdeal.Read
import proofs.«169522_j80668075753671_2_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx

/-- The three kinds of argument array: an input [2, 2048, 1024], a weight matrix [1024, 1024], a bias [1024]. -/
abbrev A3 := (⟨S2x2048x1024, .f32⟩ : BufTy).Contents (Elt Ideal)
abbrev A2 := (⟨S1024x1024, .f32⟩ : BufTy).Contents (Elt Ideal)
abbrev A1 := (⟨S1024, .f32⟩ : BufTy).Contents (Elt Ideal)

/-! ## The three projections at an index -/

/-- Head `h`, lane `d` of position `s`, read back through the transpose and the reshape, is column `h·64 + d` of row `s`. -/
theorem idx_proj (b : Fin 2) (h : Fin 16) (s : Fin 2048) (d : Fin 64) :
    idx_main_v4 (idx_main_v5 (ix4 b h s d)) = ix3 b s (Cert.Spec.col h d) := by
  funext a
  apply Fin.ext
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The contraction of a projection runs over the input's last axis … -/
theorem lidx_proj (b : Fin 2) (s : Fin 2048) (c k : Fin 1024) : lidx_main_v0 (ix3 b s c) k = ix3 b s k := by
  funext a; match a with | ⟨0, _⟩ => rfl | ⟨1, _⟩ => rfl | ⟨2, _⟩ => rfl

/-- … and the matrix's first. -/
theorem ridx_proj (b : Fin 2) (s : Fin 2048) (c k : Fin 1024) : ridx_main_v0 (ix3 b s c) k = ix2 k c := by
  funext a; match a with | ⟨0, _⟩ => rfl | ⟨1, _⟩ => rfl

/-- The bias is broadcast along batch and position: element (b, s, c) reads entry `c`. -/
theorem bias_proj (b : Fin 2) (s : Fin 2048) (c : Fin 1024) : idx_main_v1 (idx_main_v2 (ix3 b s c)) = ix1 c := by
  funext a; match a with | ⟨0, _⟩ => rfl

/-- A projected input at head `h`, position `s`, lane `d` is the linear projection at column `h·64 + d`. -/
theorem proj_v5 (x0 : A3) (x3 : A2) (x4 : A1) (b : Fin 2) (h : Fin 16) (s : Fin 2048) (d : Fin 64) :
    val_main_v5 (F := Ideal) x0 x3 x4 (ix4 b h s d) = Cert.Spec.proj x0 x3 x4 b s (Cert.Spec.col h d) := by
  rw [val_main_v5_apply, val_main_v4_apply, idx_proj, val_main_v3_apply, val_main_v0_apply, val_main_v2_apply,
    val_main_v1_apply, bias_proj]
  simp only [lidx_proj, ridx_proj]
  rfl

/-- The key and the value projections are the same six operations as the query's, applied to their own arguments. -/
theorem v11_eq (x1 : A3) (x5 : A2) (x6 : A1) : val_main_v11 (F := Ideal) x1 x5 x6 = val_main_v5 (F := Ideal) x1 x5 x6 := rfl
theorem v17_eq (x2 : A3) (x7 : A2) (x8 : A1) : val_main_v17 (F := Ideal) x2 x7 x8 = val_main_v5 (F := Ideal) x2 x7 x8 := rfl

/-! ## The scores -/

/-- The row of scaled scores of query position `q` in head `h`: entry `k` is (Σ_d Q[b,q,h·64+d] · K[b,k,h·64+d]) · 1/8. -/
def scoreRow (x0 x1 : A3) (x3 : A2) (x4 : A1) (x5 : A2) (x6 : A1) (b : Fin 2) (h : Fin 16) (q : Fin 2048) : Fin 2048 → EReal :=
  fun k => (∑ d : Fin 64, Cert.Spec.proj x0 x3 x4 b q (Cert.Spec.col h d) * Cert.Spec.proj x1 x5 x6 b k (Cert.Spec.col h d))
    * Cert.Spec.scale

theorem lidx_score (b : Fin 2) (h : Fin 16) (q k : Fin 2048) (d : Fin 64) : lidx_main_v18 (ix4 b h q k) d = ix4 b h q d := by
  funext a; match a with | ⟨0, _⟩ => rfl | ⟨1, _⟩ => rfl | ⟨2, _⟩ => rfl | ⟨3, _⟩ => rfl

theorem ridx_score (b : Fin 2) (h : Fin 16) (q k : Fin 2048) (d : Fin 64) : ridx_main_v18 (ix4 b h q k) d = ix4 b h k d := by
  funext a; match a with | ⟨0, _⟩ => rfl | ⟨1, _⟩ => rfl | ⟨2, _⟩ => rfl | ⟨3, _⟩ => rfl

/-- The scaled score array at (b, h, q, k) is entry `k` of the score row. -/
theorem score_v20 (x0 x1 : A3) (x3 : A2) (x4 : A1) (x5 : A2) (x6 : A1) (b : Fin 2) (h : Fin 16) (q k : Fin 2048) :
    val_main_v20 (F := Ideal) x0 x1 x3 x4 x5 x6 (ix4 b h q k) = scoreRow x0 x1 x3 x4 x5 x6 b h q k := by
  rw [val_main_v20_apply, val_main_v18_apply, val_main_v19_apply, val_main_cst_apply]
  simp only [lidx_score, ridx_score, v11_eq, proj_v5]
  rfl

/-! ## The row maximum -/

/-- The word 0xFF800000 is −∞, the bottom of the extended reals. -/
theorem negInf_eq_bot : (Ideal.ofBits .f32 0xFF800000#32 : EReal) = ⊥ := by simp [Ideal.ofBits, Ideal.ieee]

/-- The source index over (b, h, q) with coordinate `k` inserted on the reduced last axis. -/
theorem lift_row (hR : S2x16x2048x2048.Reduces [3] S2x16x2048) (b : Fin 2) (h : Fin 16) (q k : Fin 2048) :
    hR.lift (ix3 b h q) k = ix4 b h q k := by
  funext a; apply Fin.ext; match a with | ⟨0, _⟩ => rfl | ⟨1, _⟩ => rfl | ⟨2, _⟩ => rfl | ⟨3, _⟩ => rfl

/-- The maximum-reduce over the last axis, then the maximum with −∞, is the row maximum folded from −∞:
    the reduce is the fold of `max` over the 2048 positions starting from −∞, and `max (−∞) m = m`. -/
theorem rowmax_v23 (x0 x1 : A3) (x3 : A2) (x4 : A1) (x5 : A2) (x6 : A1) (b : Fin 2) (h : Fin 16) (q : Fin 2048) :
    val_main_v23 (F := Ideal) x0 x1 x3 x4 x5 x6 (ix3 b h q) = Cert.Spec.rowMax (scoreRow x0 x1 x3 x4 x5 x6 b h q) := by
  rw [val_main_v23_apply, val_main_v22_apply, val_main_cst_1_apply]
  unfold val_main_v21
  have hrow : ∀ k, val_main_v20 (F := Ideal) x0 x1 x3 x4 x5 x6 (ix4 b h q k) = scoreRow x0 x1 x3 x4 x5 x6 b h q k :=
    score_v20 x0 x1 x3 x4 x5 x6 b h q
  generalize val_main_v20 (F := Ideal) x0 x1 x3 x4 x5 x6 = y at hrow ⊢
  have hR : S2x16x2048x2048.Reduces [3] S2x16x2048 := by decide
  have hred : Host.reduce FloatOps.maximumf y (val_main_cst_0 (F := Ideal)) reducesTo_S2x16x2048x2048_S2x16x2048_d3 h_S_ (ix3 b h q)
      = (Finset.univ : Finset (Fin 2048)).fold max (Ideal.ofBits .f32 0xFF800000#32) (y ∘ hR.lift (ix3 b h q)) :=
    Host.reduce_eq_fold_single _ y _ reducesTo_S2x16x2048x2048_S2x16x2048_d3 hR h_S_ (ix3 b h q)
  rw [hred]
  have e : (y ∘ hR.lift (ix3 b h q)) = scoreRow x0 x1 x3 x4 x5 x6 b h q :=
    funext fun (k : Fin 2048) => (congrArg y (lift_row hR b h q k)).trans (hrow k)
  rw [e]
  show max (Ideal.ofBits .f32 0xFF800000#32) (Cert.Spec.rowMax (scoreRow x0 x1 x3 x4 x5 x6 b h q)) = _
  rw [negInf_eq_bot, max_eq_right bot_le]

/-! ## The softmax weights -/

/-- The row statistics are broadcast back along the last axis: element (b, h, q, k) reads row (b, h, q). -/
theorem idx_keep (b : Fin 2) (h : Fin 16) (q k : Fin 2048) : idx_main_v24 (idx_main_v25 (ix4 b h q k)) = ix3 b h q := by
  funext a; match a with | ⟨0, _⟩ => rfl | ⟨1, _⟩ => rfl | ⟨2, _⟩ => rfl

theorem idx_keep' (b : Fin 2) (h : Fin 16) (q k : Fin 2048) : idx_main_v29 (idx_main_v30 (ix4 b h q k)) = ix3 b h q :=
  idx_keep b h q k

theorem idx_sum (b : Fin 2) (h : Fin 16) (q k : Fin 2048) : idx_main_v28 (ix3 b h q) k = ix4 b h q k := by
  funext a; match a with | ⟨0, _⟩ => rfl | ⟨1, _⟩ => rfl | ⟨2, _⟩ => rfl | ⟨3, _⟩ => rfl

/-- The exponential of a score less its row's maximum. -/
theorem exp_v27 (x0 x1 : A3) (x3 : A2) (x4 : A1) (x5 : A2) (x6 : A1) (b : Fin 2) (h : Fin 16) (q k : Fin 2048) :
    val_main_v27 (F := Ideal) x0 x1 x3 x4 x5 x6 (ix4 b h q k)
      = Ideal.exp (scoreRow x0 x1 x3 x4 x5 x6 b h q k - Cert.Spec.rowMax (scoreRow x0 x1 x3 x4 x5 x6 b h q)) := by
  rw [val_main_v27_apply, val_main_v26_apply, val_main_v25_apply, val_main_v24_apply, idx_keep, rowmax_v23, score_v20]
  rfl

/-- The word 0 is the real number 0. -/
theorem zero_word : (FloatOps.ofBits (F := Ideal) .f32 0x00000000#32 : EReal) = 0 := by
  rw [Ideal.ofBits_def]; exact Ideal.ofBits_zero_f32

/-- The normalised exponentials are the softmax weights of the score row. -/
theorem weight_v31 (x0 x1 : A3) (x3 : A2) (x4 : A1) (x5 : A2) (x6 : A1) (b : Fin 2) (h : Fin 16) (q k : Fin 2048) :
    val_main_v31 (F := Ideal) x0 x1 x3 x4 x5 x6 (ix4 b h q k) = Cert.Spec.weight (scoreRow x0 x1 x3 x4 x5 x6 b h q) k := by
  rw [val_main_v31_apply, val_main_v30_apply, val_main_v29_apply, idx_keep', val_main_v28_apply, val_main_cst_2_apply,
    zero_word, zero_add]
  simp only [idx_sum, exp_v27]
  rfl

/-! ## The weighted sum of the values, and the layout back to [2, 2048, 1024] -/

theorem lidx_out (b : Fin 2) (h : Fin 16) (q : Fin 2048) (d : Fin 64) (k : Fin 2048) :
    lidx_main_v32 (ix4 b h q d) k = ix4 b h q k := by
  funext a; match a with | ⟨0, _⟩ => rfl | ⟨1, _⟩ => rfl | ⟨2, _⟩ => rfl | ⟨3, _⟩ => rfl

theorem ridx_out (b : Fin 2) (h : Fin 16) (q : Fin 2048) (d : Fin 64) (k : Fin 2048) :
    ridx_main_v32 (ix4 b h q d) k = ix4 b h k d := by
  funext a; match a with | ⟨0, _⟩ => rfl | ⟨1, _⟩ => rfl | ⟨2, _⟩ => rfl | ⟨3, _⟩ => rfl

/-- The second contraction at (b, h, q, d) is attention over the three projections at head `h`, position `q`, lane `d`. -/
theorem attend_v32 (x0 x1 x2 : A3) (x3 : A2) (x4 : A1) (x5 : A2) (x6 : A1) (x7 : A2) (x8 : A1)
    (b : Fin 2) (h : Fin 16) (q : Fin 2048) (d : Fin 64) :
    val_main_v32 (F := Ideal) x0 x1 x2 x3 x4 x5 x6 x7 x8 (ix4 b h q d)
      = Cert.Spec.attend (Cert.Spec.proj x0 x3 x4) (Cert.Spec.proj x1 x5 x6) (Cert.Spec.proj x2 x7 x8) b h q d := by
  rw [val_main_v32_apply]
  simp only [lidx_out, ridx_out, weight_v31, v17_eq, proj_v5]
  rfl

/-- Element (b, s, e) of the result, read back through the reshape and the transpose, is head `e / 64`, lane `e % 64`
    of position `s`. -/
theorem idx_out (b : Fin 2) (s : Fin 2048) (e : Fin 1024) :
    idx_main_v33 (idx_main_v34 (ix3 b s e))
      = ix4 b (⟨e.val / 64, by have := e.isLt; omega⟩ : Fin 16) s (⟨e.val % 64, Nat.mod_lt _ (by decide)⟩ : Fin 64) := by
  funext a
  apply Fin.ext
  have hb := b.isLt; have hs := s.isLt; have he := e.isLt
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

/-- The reference program computes the specification. -/
theorem ref_eq (x0 x1 x2 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    Cert.ReferenceIdeal.Read.val_main_v34 (F := Ideal) x0 x1 x2 x3 x4 x5 x6 x7 x8 = Cert.Spec.out x0 x1 x2 x3 x4 x5 x6 x7 x8 := by
  funext i
  obtain ⟨b, s, e, rfl⟩ : ∃ (b : Fin 2) (s : Fin 2048) (e : Fin 1024), i = ix3 b s e := ⟨i 0, i 1, i 2, eq_ix3 i⟩
  rw [val_main_v34_apply, val_main_v33_apply, idx_out, attend_v32]
  rfl

end Cert.ReferenceIdeal.RefSpec

end
-- ==== Proof.lean ====
/-
  The certificate of an attention layer: three linear projections  y = x·W + β  of the query, key and value inputs,
  then scaled-dot-product attention over 16 heads of 64 lanes, against its plain reference, on the extended reals.

  Both programs compute one function (Proof/Spec.lean, `Cert.Spec.out`): element (b, s, e) of the result is, for head
  h = e / 64, the softmax over the 2048 key positions of the scaled scores of query row (b, s, h) against the key rows
  (b, ·, h), summed against column e of the projected values. The kernel computes it in four regions — the three
  projections on the inputs flattened to [4096, 1024], four row blocks each, and attention on the projections re-laid
  into 16 pairs of heads, one (pair, query tile) per grid point — between host reshapes and transposes; the reference
  computes it head by head with one batched product per step. On the extended reals the changes of float format are
  the identity, a matrix product into a zero accumulator is the plain sum over the contracted axis, and the two row
  reductions are a fold of `max` from −∞ and a plain sum, so the two sides are the same sums, the same maximum, the same
  exponentials and the same quotient, indexed through different layouts; the layouts are related by quotients and
  remainders of the literal extents. No law used needs the inputs finite, so the precondition is never opened.

  The frames of the two kernel programs are the generated ones; the reference's frame is its generated run with the
  result dropped; the idealization rewrote nothing, so `preserves` is trivial; `algebraic` puts the kernel's run
  (Proof/KernelValue.lean) beside the reference's run read back to the specification (Proof/RefSpec.lean).
-/
import proofs.«169522_j80668075753671_2_alg».proof.Defs
import proofs.«169522_j80668075753671_2_alg».proof.Proof.Gen.Kernel
import proofs.«169522_j80668075753671_2_alg».proof.Proof.Gen.Kernel.Skeleton
import proofs.«169522_j80668075753671_2_alg».proof.Proof.Gen.Kernel.Launch
import proofs.«169522_j80668075753671_2_alg».proof.Proof.Gen.Kernel.Points
import proofs.«169522_j80668075753671_2_alg».proof.Proof.Gen.Kernel.Frame
import proofs.«169522_j80668075753671_2_alg».proof.Proof.Gen.KernelIdeal
import proofs.«169522_j80668075753671_2_alg».proof.Proof.Gen.KernelIdeal.Skeleton
import proofs.«169522_j80668075753671_2_alg».proof.Proof.Gen.KernelIdeal.Launch
import proofs.«169522_j80668075753671_2_alg».proof.Proof.Gen.KernelIdeal.Points
import proofs.«169522_j80668075753671_2_alg».proof.Proof.Gen.KernelIdeal.Frame
import proofs.«169522_j80668075753671_2_alg».proof.Proof.Gen.ReferenceIdeal
import proofs.«169522_j80668075753671_2_alg».proof.Proof.Gen.ReferenceIdeal.Run
import proofs.«169522_j80668075753671_2_alg».proof.Proof.Gen.ReferenceIdeal.Read
import proofs.«169522_j80668075753671_2_alg».proof.Proof.Gen.Pre_finite_inputs
import proofs.«169522_j80668075753671_2_alg».proof.Proof.KernelValue
import proofs.«169522_j80668075753671_2_alg».proof.Proof.RefSpec
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with the specification of those arguments in
    their result buffers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v34_eq, Cert.ReferenceIdeal.RefSpec.ref_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
